-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v20_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v20_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_arg6 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024x1024 .f32) (main_arg5 : FVec F S1024x1024 .f32) (main_arg6 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x2048x1024 : Shape := ⟨3, ![2, 2048, 1024]⟩
abbrev S1024x1024 : Shape := ⟨2, ![1024, 1024]⟩
abbrev S4096x1024 : Shape := ⟨2, ![4096, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S64x1024 : Shape := ⟨2, ![64, 1024]⟩
abbrev S1x1x512x2048 : Shape := ⟨4, ![1, 1, 512, 2048]⟩
abbrev S512x1024 : Shape := ⟨2, ![512, 1024]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 30
  | .vmem => 27
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S2x2048x16x64, .bf16⟩
  | .hbm, ⟨22, _⟩ => ⟨S2x16x2048x64, .bf16⟩
  | .hbm, ⟨23, _⟩ => ⟨S2x2048x16x64, .bf16⟩
  | .hbm, ⟨24, _⟩ => ⟨S2x16x2048x64, .bf16⟩
  | .hbm, ⟨25, _⟩ => ⟨S2x2048x16x64, .bf16⟩
  | .hbm, ⟨26, _⟩ => ⟨S2x16x2048x64, .bf16⟩
  | .hbm, ⟨27, _⟩ => ⟨S2x16x2048x2048, .f32⟩
  | .hbm, ⟨28, _⟩ => ⟨S4096x1024, .f32⟩
  | .hbm, ⟨29, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1x512x64, .bf16⟩
  | .local _ .vmem, ⟨16, _⟩ => ⟨S1x1x512x64, .bf16⟩
  | .local _ .vmem, ⟨17, _⟩ => ⟨S1x1x2048x64, .bf16⟩
  | .local _ .vmem, ⟨18, _⟩ => ⟨S1x1x2048x64, .bf16⟩
  | .local _ .vmem, ⟨19, _⟩ => ⟨S1x1x2048x64, .bf16⟩
  | .local _ .vmem, ⟨20, _⟩ => ⟨S1x1x2048x64, .bf16⟩
  | .local _ .vmem, ⟨21, _⟩ => ⟨S64x1024, .bf16⟩
  | .local _ .vmem, ⟨22, _⟩ => ⟨S64x1024, .bf16⟩
  | .local _ .vmem, ⟨23, _⟩ => ⟨S1x1x512x2048, .f32⟩
  | .local _ .vmem, ⟨24, _⟩ => ⟨S1x1x512x2048, .f32⟩
  | .local _ .vmem, ⟨25, _⟩ => ⟨S512x1024, .f32⟩
  | .local _ .vmem, ⟨26, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![2, 4, 16], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage3_0 : Fin 2 → Memref sig .tc .vmem S1x1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S64x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, false, true]

abbrev stage3_4 : Fin 2 → Memref sig .tc .vmem S1x1x512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

class Facts₀ : Prop where
  shapeCasts_S2x2048x1024_S4096x1024 : S2x2048x1024.ShapeCasts S4096x1024
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S4096x1024_S2x2048x16x64 : S4096x1024.ShapeCasts S2x2048x16x64
  transposes_S2x2048x16x64_S2x16x2048x64_0_2_1_3 : S2x2048x16x64.Transposes [0, 2, 1, 3] S2x16x2048x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S4096x1024_S2x2048x1024 : S4096x1024.ShapeCasts S2x2048x1024
  dot_S1024x1024_S1024x1024_S1024x1024_1_0_0_1_n_n_wf : DotDims.WF S1024x1024 S1024x1024 S1024x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .bf16 = 32 ∨ (Rect.block (s := S4096x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x512x64.size a ≤ S2x16x2048x64.size a
  hwx3_0 : ∀ i : grid3.Coords, EltTy.bits .bf16 = 32 ∨ (Rect.block (s := S2x16x2048x64) S1x1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x64.size a ≤ S2x16x2048x64.size a
  hwx3_1 : ∀ i : grid3.Coords, EltTy.bits .bf16 = 32 ∨ (Rect.block (s := S2x16x2048x64) S1x1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x64.size a ≤ S2x16x2048x64.size a
  hwx3_2 : ∀ i : grid3.Coords, EltTy.bits .bf16 = 32 ∨ (Rect.block (s := S2x16x2048x64) S1x1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S64x1024.size a ≤ S1024x1024.size a
  hwx3_3 : ∀ i : grid3.Coords, EltTy.bits .bf16 = 32 ∨ (Rect.block (s := S1024x1024) S64x1024.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x512x2048.size a ≤ S2x16x2048x2048.size a
  hwx3_4 : ∀ i : grid3.Coords, EltTy.bits .f32 = 32 ∨ (Rect.block (s := S2x16x2048x2048) S1x1x512x2048.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x1024.size a ≤ S4096x1024.size a
  hwx3_5 : ∀ i : grid3.Coords, EltTy.bits .f32 = 32 ∨ (Rect.block (s := S4096x1024) S512x1024.size (cc3_transform_5 i) (hinb3_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S1x1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S1x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S64x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v20_0) S1x1x512x2048.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v20_1) S512x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x2048x1024, .f32⟩
  | .hbm, ⟨8, _⟩ => ⟨S2x2048x16x64, .f32⟩
  | .hbm, ⟨9, _⟩ => ⟨S2x16x2048x64, .f32⟩
  | .hbm, ⟨10, _⟩ => ⟨S2x2048x1024, .f32⟩
  | .hbm, ⟨11, _⟩ => ⟨S2x2048x16x64, .f32⟩
  | .hbm, ⟨12, _⟩ => ⟨S2x16x2048x64, .f32⟩
  | .hbm, ⟨13, _⟩ => ⟨S2x2048x1024, .f32⟩
  | .hbm, ⟨14, _⟩ => ⟨S2x2048x16x64, .f32⟩
  | .hbm, ⟨15, _⟩ => ⟨S2x16x2048x64, .f32⟩
  | .hbm, ⟨16, _⟩ => ⟨S2x16x2048x2048, .f32⟩
  | .hbm, ⟨17, _⟩ => ⟨S_, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.MultiHeadSpec.lean ====
/-
  Multi-head attention followed by its output projection, as ONE function of the seven argument arrays over the
  extended reals: batch 2, sequence length 2048, model width 1024 = 16 heads of 64 columns.

  A linear layer without bias is `y[b,t,e] = Σ_d x[b,t,d] · W[e,d]`. Head `h` owns the columns `64·h + d`, `d < 64`.
  The score of query row `i` against key row `j` in head `h` is the dot product of the two heads' 64 columns times
  `1/8 = 1/√64`; a row of scores becomes a row of weights by the softmax taken against the row's maximum,
  `exp(s_j − max s) / Σ_j' exp(s_j' − max s)`; the context of row `i` is the weights' combination of the value rows;
  and the result is the output layer applied to the 16 heads' contexts laid side by side, which is the sum over the
  heads of each head's 64 context columns against its 64 columns of the output matrix.

  Every sum here is a finite sum in a commutative monoid, so neither its order nor its grouping matters, infinite
  entries included; nothing below divides out or distributes a factor.
-/
import Idealize.ShloMosaic.PureOps.Ideal
import Idealize.ShloMosaic.Lib.ValueIdx

noncomputable section

namespace Cert.MultiHead

open Idealize.ShloMosaic Idealize.ShloMosaic.ValueIdx
open scoped BigOperators

/-- Activations `[2, 2048, 1024]`. -/
abbrev SAct : Shape := ⟨3, ![2, 2048, 1024]⟩
/-- A layer's matrix `[1024, 1024]`, rows the output columns. -/
abbrev SMat : Shape := ⟨2, ![1024, 1024]⟩
/-- Attention weights `[2, 16, 2048, 2048]`: batch, head, query row, key row. -/
abbrev SWts : Shape := ⟨4, ![2, 16, 2048, 2048]⟩

/-- Column `64·h + d`: coordinate `d` of head `h` among the 1024 model columns. -/
def col (h : Fin 16) (d : Fin 64) : Fin 1024 :=
  ⟨64 * h.val + d.val, by have := h.isLt; have := d.isLt; omega⟩

theorem col_val (h : Fin 16) (d : Fin 64) : (col h d).val = 64 * h.val + d.val := rfl

/-- The score scale `1/8`, as the f32 word `0.125`. -/
def scale : EReal := Ideal.ofBits .f32 0x3E000000#32

/-- `-∞`, the value a row's maximum is taken from. -/
def negInf : EReal := Ideal.ofBits .f32 0xFF800000#32

/-- A linear layer without bias: `y[b,t,e] = Σ_d x[b,t,d] · W[e,d]`. -/
def proj (x : SAct.Idx → EReal) (w : SMat.Idx → EReal) (b : Fin 2) (t : Fin 2048) (e : Fin 1024) : EReal :=
  ∑ d : Fin 1024, x (ix3 b t d) * w (ix2 e d)

/-- The scaled score of query row `i` against key row `j` in head `h` of batch `b`. -/
def score (q k : Fin 2 → Fin 2048 → Fin 1024 → EReal) (b : Fin 2) (h : Fin 16) (i j : Fin 2048) : EReal :=
  (∑ d : Fin 64, q b i (col h d) * k b j (col h d)) * scale

/-- The maximum of a row of 2048 scores, taken from `-∞`. -/
def rowMax (s : Fin 2048 → EReal) : EReal := (Finset.univ : Finset (Fin 2048)).fold max negInf s

/-- The softmax of a row against its maximum. -/
def softmax (s : Fin 2048 → EReal) (j : Fin 2048) : EReal :=
  Ideal.div (Ideal.exp (s j - rowMax s)) (∑ j' : Fin 2048, Ideal.exp (s j' - rowMax s))

/-- The attention weight of key row `j` for query row `i`. -/
def attnWeight (q k : Fin 2 → Fin 2048 → Fin 1024 → EReal) (b : Fin 2) (h : Fin 16) (i j : Fin 2048) : EReal :=
  softmax (score q k b h i) j

/-- Column `d` of head `h`'s context for query row `i`: the weights' combination of the value rows. -/
def context (q k v : Fin 2 → Fin 2048 → Fin 1024 → EReal) (b : Fin 2) (h : Fin 16) (i : Fin 2048) (d : Fin 64) : EReal :=
  ∑ j : Fin 2048, attnWeight q k b h i j * v b j (col h d)

/-- The output layer on the heads' contexts side by side, summed head by head. -/
def outProj (q k v : Fin 2 → Fin 2048 → Fin 1024 → EReal) (wo : SMat.Idx → EReal) (b : Fin 2) (t : Fin 2048)
    (e : Fin 1024) : EReal :=
  ∑ h : Fin 16, ∑ d : Fin 64, context q k v b h t d * wo (ix2 e (col h d))

/-- The attention weights as an array of the query and key activations and their two layers. -/
def weights (xq xk : SAct.Idx → EReal) (wq wk : SMat.Idx → EReal) : SWts.Idx → EReal := fun i =>
  attnWeight (proj xq wq) (proj xk wk) (i 0) (i 1) (i 2) (i 3)

/-- The layer's result as an array of the three activations and the four matrices. -/
def output (xq xk xv : SAct.Idx → EReal) (wq wk wv wo : SMat.Idx → EReal) : SAct.Idx → EReal := fun i =>
  outProj (proj xq wq) (proj xk wk) (proj xv wv) wo (i 0) (i 1) (i 2)

end Cert.MultiHead

end
-- ==== Proof.LibSumRegroup.lean ====
/-
  Regrouping a finite sum in a commutative monoid: a sum over m·n consecutive positions as a double sum
  over the quotient and the remainder of the position by n, and a sum over a rank-1 index set as the sum
  over its one coordinate. Both hold in any additive commutative monoid — in particular on the extended
  reals, where no finiteness is needed to regroup a sum.
-/
import Idealize.ShloMosaic.PureOps.Ideal
import Idealize.ShloMosaic.Lib.ValueIdx

noncomputable section

open scoped BigOperators

namespace Cert.Lib.SumRegroup

open Idealize.ShloMosaic Idealize.ShloMosaic.ValueIdx

/-- A sum over m·n consecutive positions is the double sum over (c, d) of the position n·c + d. -/
theorem sum_fin_mul {M : Type*} [AddCommMonoid M] (m n N : ℕ) (hN : N = m * n) (f : Fin N → M) :
    ∑ k : Fin N, f k = ∑ c : Fin m, ∑ d : Fin n, f (Fin.cast hN.symm (finProdFinEquiv (c, d))) := by
  subst hN
  rw [← Equiv.sum_comp finProdFinEquiv f, Fintype.sum_prod_type]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Lib.SumRegroup

end
-- ==== Proof.ReferenceIsSpec.lean ====
/-
  The reference program computes the specification.

  The reference is the textbook multi-head attention: three linear layers, a split of the 1024 model columns into
  16 heads of 64 columns (column 64·h + d is coordinate d of head h), the scores of every query row against every key
  row divided by √64, a softmax along the key rows taken against the row's maximum, the weights' combination of the
  value rows, the heads laid side by side again, and the output layer. Read index by index, each of its operations
  is the corresponding definition of the specification:

  * dividing by √64 is multiplying by 1/8, at the infinities too;
  * the row maximum is a fold of max from -∞ over the key rows, and taking the maximum of that with -∞ once more
    changes nothing, because a fold of max is at least its starting value;
  * the sum of the exponentials starts from 0, which adds nothing;
  * the output layer sums over all 1024 columns, which is the sum over the 16 heads of the sum over each head's 64
    columns: a regrouping of a finite sum in a commutative monoid, valid for infinite entries too.
-/
import proofs.«133852_j87926570484461_2_alg».proof.Proof.Gen.ReferenceIdeal.Read
import proofs.«133852_j87926570484461_2_alg».proof.Proof.MultiHeadSpec
import proofs.«133852_j87926570484461_2_alg».proof.Proof.LibSumRegroup

noncomputable section

namespace Cert.ReferenceIdeal.RefValue

open Cert.ReferenceIdeal Cert.ReferenceIdeal.Gen Cert.ReferenceIdeal.Read Cert.MultiHead
open Idealize.ShloMosaic Idealize.ShloMosaic.StableHlo Idealize.ShloMosaic.ValueIdx
open scoped BigOperators

/-! ## Two indices are equal when their coordinates are -/

theorem idx2_ext {n0 n1 : Nat} (u v : (⟨2, ![n0, n1]⟩ : Shape).Idx)
    (h0 : (u 0).val = (v 0).val) (h1 : (u 1).val = (v 1).val) : u = v :=
  funext fun a => Fin.ext (by match a with | ⟨0, _⟩ => exact h0 | ⟨1, _⟩ => exact h1)

theorem idx3_ext {n0 n1 n2 : Nat} (u v : (⟨3, ![n0, n1, n2]⟩ : Shape).Idx)
    (h0 : (u 0).val = (v 0).val) (h1 : (u 1).val = (v 1).val) (h2 : (u 2).val = (v 2).val) : u = v :=
  funext fun a => Fin.ext (by match a with | ⟨0, _⟩ => exact h0 | ⟨1, _⟩ => exact h1 | ⟨2, _⟩ => exact h2)

theorem idx4_ext {n0 n1 n2 n3 : Nat} (u v : (⟨4, ![n0, n1, n2, n3]⟩ : Shape).Idx)
    (h0 : (u 0).val = (v 0).val) (h1 : (u 1).val = (v 1).val) (h2 : (u 2).val = (v 2).val)
    (h3 : (u 3).val = (v 3).val) : u = v :=
  funext fun a => Fin.ext (by
    match a with | ⟨0, _⟩ => exact h0 | ⟨1, _⟩ => exact h1 | ⟨2, _⟩ => exact h2 | ⟨3, _⟩ => exact h3)

/-! ## Dividing by √64 is multiplying by 1/8 -/

/-- The word `0x42800000` is the real number 64. -/
theorem ofBits_sixtyFour : Ideal.ofBits .f32 0x42800000#32 = ((64 : ℝ) : EReal) := by
  simp [Ideal.ofBits, Ideal.ieee, -EReal.coe_mul]; norm_num

/-- The word `0x3E000000` is the real number 1/8. -/
theorem ofBits_eighth : Ideal.ofBits .f32 0x3E000000#32 = (((1 : ℝ) / 8 : ℝ) : EReal) := by
  simp [Ideal.ofBits, Ideal.ieee, -EReal.coe_mul]; norm_num

theorem sqrt_sixtyFour : Real.sqrt 64 = 8 := by
  rw [show (64 : ℝ) = 8 ^ 2 by norm_num]; exact Real.sqrt_sq (by norm_num)

/-- On every extended real, dividing by the square root of 64 is multiplying by the score scale 1/8. -/
theorem div_sqrt_sixtyFour (x : EReal) :
    Ideal.div x (Ideal.sqrt (Ideal.ofBits .f32 0x42800000#32)) = x * scale := by
  rw [ofBits_sixtyFour, Ideal.sqrt_coe, if_neg (by norm_num), sqrt_sixtyFour, Ideal.div_coe (by norm_num), scale,
    ofBits_eighth]

variable (x0 x1 x2 : (⟨S2x2048x1024, .f32⟩ : BufTy).Contents (Elt Ideal))
  (x3 x4 x5 x6 : (⟨S1024x1024, .f32⟩ : BufTy).Contents (Elt Ideal))

/-! ## The three linear layers and the split into heads -/

/-- A layer's product at (b, t, e) is the specification's layer there. -/
theorem layer_apply (b : Fin 2) (t : Fin 2048) (e : Fin 1024) :
    val_main_v0 (F := Ideal) x0 x3 (ix3 b t e) = proj x0 x3 b t e := by
  rw [val_main_v0_apply]
  unfold proj
  refine Finset.sum_congr rfl fun k _ => ?_
  rw [show lidx_main_v0 (ix3 b t e) k = ix3 b t k from idx3_ext _ _ rfl rfl rfl,
    show ridx_main_v0 (ix3 b t e) k = ix2 e k from idx2_ext _ _ rfl rfl]

/-- Row-major position ((b·2048 + i)·16 + h)·64 + d of [2, 2048, 16, 64] is position (b, i, 64·h + d) of
    [2, 2048, 1024]. -/
theorem split_idx (b : Fin 2) (h : Fin 16) (i : Fin 2048) (d : Fin 64) :
    idx_main_v1 (idx_main_v2 (ix4 b h i d)) = ix3 b i (col h d) := by
  have hb := b.isLt; have hh := h.isLt; have hi := i.isLt; have hd := d.isLt
  exact idx3_ext _ _
    (by show (((b.val * 2048 + i.val) * 16 + h.val) * 64 + d.val) / 2097152 = b.val; omega)
    (by show (((b.val * 2048 + i.val) * 16 + h.val) * 64 + d.val) / 1024 % 2048 = i.val; omega)
    (by show (((b.val * 2048 + i.val) * 16 + h.val) * 64 + d.val) % 1024 = 64 * h.val + d.val; omega)

/-- Head h's coordinate d of a layer's row i is the layer's column 64·h + d. -/
theorem heads_apply (b : Fin 2) (h : Fin 16) (i : Fin 2048) (d : Fin 64) :
    val_main_v2 (F := Ideal) x0 x3 (ix4 b h i d) = proj x0 x3 b i (col h d) := by
  rw [val_main_v2_apply, val_main_v1_apply, split_idx, layer_apply]

/-! ## The scores -/

/-- The product of the query and key heads at (b, h, i, j) is the dot product of their 64 columns. -/
theorem dots_apply (b : Fin 2) (h : Fin 16) (i j : Fin 2048) :
    val_main_v9 (F := Ideal) x0 x1 x3 x4 (ix4 b h i j)
      = ∑ d : Fin 64, proj x0 x3 b i (col h d) * proj x1 x4 b j (col h d) := by
  rw [val_main_v9_apply]
  refine Finset.sum_congr rfl fun d _ => ?_
  rw [show lidx_main_v9 (ix4 b h i j) d = ix4 b h i d from idx4_ext _ _ rfl rfl rfl rfl,
    show ridx_main_v9 (ix4 b h i j) d = ix4 b h j d from idx4_ext _ _ rfl rfl rfl rfl,
    heads_apply]
  exact congrArg (_ * ·) (heads_apply x1 x4 b h j d)

/-- Divided by √64 it is the specification's score. -/
theorem score_apply (b : Fin 2) (h : Fin 16) (i j : Fin 2048) :
    val_main_v12 (F := Ideal) x0 x1 x3 x4 (ix4 b h i j) = score (proj x0 x3) (proj x1 x4) b h i j := by
  rw [val_main_v12_apply, val_main_v11_apply, val_main_v10_apply, val_main_cst_apply, dots_apply]
  exact div_sqrt_sixtyFour _

/-! ## The row maximum -/

/-- The reduction over the key rows is the fold of max from -∞ over them: the specification's row maximum. -/
theorem rowMax_apply (b : Fin 2) (h : Fin 16) (i : Fin 2048) :
    val_main_v13 (F := Ideal) x0 x1 x3 x4 (ix3 b h i) = rowMax (score (proj x0 x3) (proj x1 x4) b h i) := by
  have hr : S2x16x2048x2048.Reduces [3] S2x16x2048 := by decide
  unfold val_main_v13
  rw [Host.reduce_eq_fold_single (FloatOps.maximumf (F := Ideal) (φ := .f32)) _ _
    reducesTo_S2x16x2048x2048_S2x16x2048_d3 hr h_S_ (ix3 b h i)]
  refine (Finset.fold_congr (g := score (proj x0 x3) (proj x1 x4) b h i) fun k _ => ?_).trans rfl
  show val_main_v12 (F := Ideal) x0 x1 x3 x4 (hr.lift (ix3 b h i) k) = _
  rw [show hr.lift (ix3 b h i) k = ix4 b h i k from idx4_ext _ _ rfl rfl rfl rfl, score_apply]

/-- The maximum of -∞ and the row maximum is the row maximum: a fold of max is at least its starting value. -/
theorem rowMax_again_apply (b : Fin 2) (h : Fin 16) (i : Fin 2048) :
    val_main_v15 (F := Ideal) x0 x1 x3 x4 (ix3 b h i) = rowMax (score (proj x0 x3) (proj x1 x4) b h i) := by
  rw [val_main_v15_apply, val_main_v14_apply, val_main_cst_1_apply, rowMax_apply]
  exact max_eq_right ((Finset.le_fold_max _).mpr (Or.inl le_rfl))

/-! ## The softmax -/

/-- The exponential of a score less its row's maximum. -/
theorem expShift_apply (b : Fin 2) (h : Fin 16) (i j : Fin 2048) :
    val_main_v19 (F := Ideal) x0 x1 x3 x4 (ix4 b h i j)
      = Ideal.exp (score (proj x0 x3) (proj x1 x4) b h i j - rowMax (score (proj x0 x3) (proj x1 x4) b h i)) := by
  rw [val_main_v19_apply, val_main_v18_apply, val_main_v17_apply, val_main_v16_apply,
    show idx_main_v16 (idx_main_v17 (ix4 b h i j)) = ix3 b h i from idx3_ext _ _ rfl rfl rfl,
    rowMax_again_apply, score_apply]
  rfl

/-- The sum of a row's exponentials: the sum from 0 is the sum. -/
theorem expSum_apply (b : Fin 2) (h : Fin 16) (i : Fin 2048) :
    val_main_v20 (F := Ideal) x0 x1 x3 x4 (ix3 b h i)
      = ∑ j' : Fin 2048,
          Ideal.exp (score (proj x0 x3) (proj x1 x4) b h i j' - rowMax (score (proj x0 x3) (proj x1 x4) b h i)) := by
  rw [val_main_v20_apply, val_main_cst_2_apply, Ideal.ofBits_def, Ideal.ofBits_zero_f32, zero_add]
  refine Finset.sum_congr rfl fun j' _ => ?_
  rw [show idx_main_v20 (ix3 b h i) j' = ix4 b h i j' from idx4_ext _ _ rfl rfl rfl rfl, expShift_apply]

/-- The quotient of the two is the specification's attention weight. -/
theorem weight_apply (b : Fin 2) (h : Fin 16) (i j : Fin 2048) :
    val_main_v23 (F := Ideal) x0 x1 x3 x4 (ix4 b h i j) = attnWeight (proj x0 x3) (proj x1 x4) b h i j := by
  rw [val_main_v23_apply, val_main_v22_apply, val_main_v21_apply,
    show idx_main_v21 (idx_main_v22 (ix4 b h i j)) = ix3 b h i from idx3_ext _ _ rfl rfl rfl,
    expSum_apply, expShift_apply]
  rfl

/-! ## The contexts, the heads side by side, and the output layer -/

/-- The weights' combination of the value heads' rows is the specification's context. -/
theorem context_apply (b : Fin 2) (h : Fin 16) (i : Fin 2048) (d : Fin 64) :
    val_main_v24 (F := Ideal) x0 x1 x2 x3 x4 x5 (ix4 b h i d)
      = context (proj x0 x3) (proj x1 x4) (proj x2 x5) b h i d := by
  rw [val_main_v24_apply]
  unfold context
  refine Finset.sum_congr rfl fun j _ => ?_
  rw [show lidx_main_v24 (ix4 b h i d) j = ix4 b h i j from idx4_ext _ _ rfl rfl rfl rfl,
    show ridx_main_v24 (ix4 b h i d) j = ix4 b h j d from idx4_ext _ _ rfl rfl rfl rfl,
    weight_apply]
  exact congrArg (_ * ·) (heads_apply x2 x5 b h j d)

/-- Row-major position (b·2048 + t)·1024 + 64·h + d of [2, 2048, 1024] is position (b, t, h, d) of [2, 2048, 16, 64],
    which the transposition reads at (b, h, t, d). -/
theorem merge_idx (b : Fin 2) (t : Fin 2048) (h : Fin 16) (d : Fin 64) :
    idx_main_v25 (idx_main_v26 (ix3 b t (col h d))) = ix4 b h t d := by
  have hb := b.isLt; have ht := t.isLt; have hh := h.isLt; have hd := d.isLt
  exact idx4_ext _ _
    (by show ((b.val * 2048 + t.val) * 1024 + (64 * h.val + d.val)) / 2097152 = b.val; omega)
    (by show ((b.val * 2048 + t.val) * 1024 + (64 * h.val + d.val)) / 64 % 16 = h.val; omega)
    (by show ((b.val * 2048 + t.val) * 1024 + (64 * h.val + d.val)) / 1024 % 2048 = t.val; omega)
    (by show ((b.val * 2048 + t.val) * 1024 + (64 * h.val + d.val)) % 64 = d.val; omega)

/-- Column 64·h + d of the heads laid side by side is head h's context column d. -/
theorem merged_apply (b : Fin 2) (t : Fin 2048) (h : Fin 16) (d : Fin 64) :
    val_main_v26 (F := Ideal) x0 x1 x2 x3 x4 x5 (ix3 b t (col h d))
      = context (proj x0 x3) (proj x1 x4) (proj x2 x5) b h t d := by
  rw [val_main_v26_apply, val_main_v25_apply, merge_idx, context_apply]

/-- The output layer's sum over the 1024 columns, regrouped head by head, is the specification's. -/
theorem outProj_apply (b : Fin 2) (t : Fin 2048) (e : Fin 1024) :
    val_main_v27 (F := Ideal) x0 x1 x2 x3 x4 x5 x6 (ix3 b t e)
      = outProj (proj x0 x3) (proj x1 x4) (proj x2 x5) x6 b t e := by
  rw [val_main_v27_apply, Cert.Lib.SumRegroup.sum_fin_mul 16 64 1024 rfl]
  unfold outProj
  refine Finset.sum_congr rfl fun h _ => Finset.sum_congr rfl fun d _ => ?_
  have hk : Fin.cast (Eq.symm (rfl : 1024 = 16 * 64)) (finProdFinEquiv (h, d)) = col h d :=
    Fin.ext (by show d.val + 64 * h.val = 64 * h.val + d.val; omega)
  rw [hk, show lidx_main_v27 (ix3 b t e) (col h d) = ix3 b t (col h d) from idx3_ext _ _ rfl rfl rfl,
    show ridx_main_v27 (ix3 b t e) (col h d) = ix2 e (col h d) from idx2_ext _ _ rfl rfl, merged_apply]

/-! ## The two results as arrays -/

/-- The reference's attention weights are the specification's. -/
theorem weights_eq (x0 x1 : (⟨S2x2048x1024, .f32⟩ : BufTy).Contents (Elt Ideal))
    (x3 x4 : (⟨S1024x1024, .f32⟩ : BufTy).Contents (Elt Ideal)) :
    Cert.ReferenceIdeal.Read.val_main_v23 (F := Ideal) x0 x1 x3 x4 = Cert.MultiHead.weights x0 x1 x3 x4 := by
  funext j
  obtain ⟨b, h, i, j', rfl⟩ : ∃ (b : Fin 2) (h : Fin 16) (i j' : Fin 2048), j = ix4 b h i j' :=
    ⟨j 0, j 1, j 2, j 3, eq_ix4 j⟩
  exact weight_apply x0 x1 x3 x4 b h i j'

/-- The reference's result is the specification's. -/
theorem output_eq (x0 x1 x2 : (⟨S2x2048x1024, .f32⟩ : BufTy).Contents (Elt Ideal))
    (x3 x4 x5 x6 : (⟨S1024x1024, .f32⟩ : BufTy).Contents (Elt Ideal)) :
    Cert.ReferenceIdeal.Read.val_main_v27 (F := Ideal) x0 x1 x2 x3 x4 x5 x6
      = Cert.MultiHead.output x0 x1 x2 x3 x4 x5 x6 := by
  funext j
  obtain ⟨b, t, e, rfl⟩ : ∃ (b : Fin 2) (t : Fin 2048) (e : Fin 1024), j = ix3 b t e :=
    ⟨j 0, j 1, j 2, eq_ix3 j⟩
  exact outProj_apply x0 x1 x2 x3 x4 x5 x6 b t e

end Cert.ReferenceIdeal.RefValue

end
-- ==== Proof.KernelRun.lean ====
/-
  The idealized kernel's run with its RESULTS named.

  The program is seven segments in a row: host operations, three projection calls, host operations, the attention
  call, host operations. Each segment takes every unscoped buffer from the contents at its entry boundary to the
  contents at its exit boundary; the last boundary's contents are `W7`. Every weakly fair execution therefore ends
  with every unscoped buffer at `W7` — in particular the two result buffers, the projected output `main_v21` and
  the attention weights `main_v20_0` — while the seven argument arrays are read back through the boundaries to what
  they were at launch.
-/
import proofs.«133852_j87926570484461_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the two result buffers end at the last
    boundary's contents, and the argument arrays end as launched. -/
theorem run_results : θ_run defs (onTc (τ := τ) (main (F := F))) ⟨m, fun _ => 0, ρ⟩ (fun r => ∀ c : Dev nD,
      r.2.mem ((c.tc : Thread nD τ).loc main_v21) = W7 m ρ c (Proc.devRef .tc main_v21)
      ∧ r.2.mem ((c.tc : Thread nD τ).loc main_v20_0) = W7 m ρ c (Proc.devRef .tc main_v20_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v21 (by decide)),
       h c _ (mem_uc main_v20_0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.KValue

end
-- ==== Proof.LibRank3Layout.lean ====
/-
  Layout operations on arrays of rank two and three, read at an entry given by its coordinates.

  A shape cast keeps the row-major position of every element, so
    * inserting a unit axis in the middle, `[a, b] → [a, 1, b]`, reads `(i, 0, j)` at `(i, j)`;
    * splitting the leading axis, `[a·b, c] → [a, b, c]`, reads `(i, j, k)` at row `i·b + j`, column `k`, and merging the
      two leading axes, `[a, b, c] → [a·b, c]`, is its inverse.
  A broadcast along unit axes repeats the operand: `[a, 1, c]`, `[1, b, c]` and `[1, 1, c]` broadcast to `[a, b, c]` read
  the operand at coordinate `0` on each unit axis.
-/
import Idealize.ShloMosaic.Lib.Pipeline.Value
import Idealize.ShloMosaic.Lib.ValueIdx

noncomputable section

namespace Cert.Lib

open Idealize.ShloMosaic Idealize.ShloMosaic.ValueIdx

variable {α : Type}

/-- Row `i·b + j` of an array whose `n = a·b` rows are `a` groups of `b`. -/
abbrev mergeIdx {n a b : ℕ} (hn : a * b = n) (i : Fin a) (j : Fin b) : Fin n :=
  ⟨i.val * b + j.val, by
    have hi := i.isLt
    have hj := j.isLt
    have h1 : (i.val + 1) * b ≤ a * b := Nat.mul_le_mul_right b hi
    rw [Nat.add_mul, Nat.one_mul] at h1
    omega⟩

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[n, c]` array with `n = a·b` cast to `[a, b, c]` reads, at `(i, j, k)`, the operand at row `i·b + j`, column `k`. -/
theorem shapeCast_nc_abc_apply {n a b c : ℕ} (hn : a * b = n) (x : (⟨2, ![n, c]⟩ : Shape).Idx → α)
    (h : (⟨2, ![n, c]⟩ : Shape).ShapeCasts ⟨3, ![a, b, c]⟩) (i : Fin a) (j : Fin b) (k : Fin c) :
    shapeCast ⟨3, ![a, b, c]⟩ x h (ix3 i j k) = x (ix2 (mergeIdx hn i j) k) :=
  shapeCast_apply x h _ _ (by
    rw [Shape.rowMajor_val_three, Shape.rowMajor_val_two]
    rfl)

/-- An `[a, b, c]` array cast to `[n, c]` with `n = a·b` reads, at row `i·b + j`, column `k`, the operand at `(i, j, k)`. -/
theorem shapeCast_abc_nc_apply {n a b c : ℕ} (hn : a * b = n) (x : (⟨3, ![a, b, c]⟩ : Shape).Idx → α)
    (h : (⟨3, ![a, b, c]⟩ : Shape).ShapeCasts ⟨2, ![n, c]⟩) (i : Fin a) (j : Fin b) (k : Fin c) :
    shapeCast ⟨2, ![n, c]⟩ x h (ix2 (mergeIdx hn i j) k) = x (ix3 i j k) :=
  shapeCast_apply x h _ _ (by
    rw [Shape.rowMajor_val_three, Shape.rowMajor_val_two]
    rfl)

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ =>
    show 0 = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ =>
    show 0 = if (1 : ℕ) = 1 then 0 else i.val
    rw [if_pos rfl]
  | ⟨1, _⟩ =>
    show 0 = if (1 : ℕ) = 1 then 0 else j.val
    rw [if_pos rfl]
  | ⟨2, _⟩ =>
    show k.val = if c = 1 then 0 else k.val
    split
    · have := k.isLt; omega
    · rfl

end Cert.Lib

end
-- ==== Proof.KernelTail.lean ====
/-
  The two results after the last host operation.

  After the attention call one host operation remains: the projected output, computed as a `[4096, 1024]` array with
  row `2048·b + t` for batch `b` and position `t`, is re-shaped to `[2, 2048, 1024]`. It does not write the attention
  weights, so the weights result is the attention call's first output array as the call left it; and entry
  `(b, t, e)` of the output result is entry `(2048·b + t, e)` of the call's second output array.
-/
import proofs.«133852_j87926570484461_2_alg».proof.Proof.Gen.KernelIdeal.Frame
import proofs.«133852_j87926570484461_2_alg».proof.Proof.LibRank3Layout
import Idealize.ShloMosaic.Lib.StableHlo.Run
import Idealize.ShloMosaic.Lib.Pipeline.Value
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg)

/-- The last host operation does not write the weights: they end as the attention call left its first output array. -/
theorem tail_weights (c : Dev nD) :
    W7 m ρ c (Proc.devRef .tc main_v20_0) = (dat3 (V5 m ρ) c).arrAt 4 cfg3.N :=
  calc W7 m ρ c (Proc.devRef .tc main_v20_0)
    _ = W6 m ρ c (Proc.devRef .tc main_v20_0) := StableHlo.after_of_forall_not_mem (b := Proc.devRef .tc main_v20_0) _ _ (List.forall_iff_forall_mem.mp (by
          simp only [hostOps4, List.Forall, StableHlo.reshape_writes, Finset.mem_singleton]
          exact StableHlo.devRef_ne_of_ne (by decide)))
    _ = (dat3 (V5 m ρ) c).arrAt 4 cfg3.N := W6_arr m ρ c 4

/-- The output result is the re-shaped second output array of the attention call. -/
theorem tail_output (c : Dev nD) :
    W7 m ρ c (Proc.devRef .tc main_v21)
      = shapeCast S2x2048x1024 ((dat3 (V5 m ρ) c).arrAt 5 cfg3.N) shapeCasts_S4096x1024_S2x2048x1024 := by
  rw [← W6_arr m ρ c 5]
  show StableHlo.after hostOps4 (W6 m ρ c) (Proc.devRef .tc main_v21) = _
  after_results <;> rfl

/-- Row `2048·b + t` of the flat array. -/
theorem two_rows : 2 * 2048 = 4096 := by norm_num

/-- Entry `(b, t, e)` of the output result is entry `(2048·b + t, e)` of the attention call's second output array. -/
theorem tail_output_apply (c : Dev nD) (b : Fin 2) (t : Fin 2048) (e : Fin 1024) :
    (W7 m ρ c (Proc.devRef .tc main_v21) : S2x2048x1024.Idx → Elt F .f32) (ix3 b t e)
      = ((dat3 (V5 m ρ) c).arrAt 5 cfg3.N : S4096x1024.Idx → Elt F .f32) (ix2 (Cert.Lib.mergeIdx two_rows b t) e) := by
  rw [tail_output m ρ c]
  exact Cert.Lib.shapeCast_nc_abc_apply two_rows _ shapeCasts_S4096x1024_S2x2048x1024 b t e

end Cert.KernelIdeal.KValue

end
-- ==== Proof.AttentionBlocks.lean ====
/-
  The attention call's input blocks, read entry by entry.

  The call runs over 2 · 4 · 16 = 128 grid points in row-major order: point `t` has batch `t / 64`, query tile
  `t / 16 % 4` and head `t % 16`. At that point the query window holds rows `512 · tile … 512 · tile + 511` of the
  batch's and head's `2048 × 64` slab of the query array, the key and value windows hold the whole `2048 × 64` slab
  of theirs, and the output-matrix window holds rows `64 · head … 64 · head + 63` of the `1024 × 1024` matrix. A
  block's entry sits in its array at block index × block extent + the entry's coordinate inside the block, axis by
  axis; the block indices are the call's index maps evaluated at the point, decided once over the 128 points.
-/
import proofs.«133852_j87926570484461_2_alg».proof.Proof.Gen.KernelIdeal.Frame
import Idealize.ShloMosaic.Lib.Pipeline.Value
import Idealize.ShloMosaic.Lib.ValueIdx

noncomputable section

namespace Cert.KernelIdeal.KValue

open Cert.KernelIdeal Cert.KernelIdeal.Gen
open Idealize.ShloMosaic Idealize.ShloMosaic.TcCoe Idealize.ShloMosaic.ValueIdx

/-! ## A grid point's coordinates -/

theorem point_lt (t : Fin cfg3.N) : t.val < 128 := t.isLt.trans_eq N_3

/-- The batch of point `t`. -/
def batchOf (t : Fin cfg3.N) : Fin 2 := ⟨t.val / 64, by have := point_lt t; omega⟩

/-- The head of point `t`. -/
def headOf (t : Fin cfg3.N) : Fin 16 := ⟨t.val % 16, by omega⟩

/-- Row `i` of point `t`'s query tile, as a row of the sequence. -/
def tileRow (t : Fin cfg3.N) (i : Fin 512) : Fin 2048 :=
  ⟨512 * (t.val / 16 % 4) + i.val, by have := i.isLt; omega⟩

/-- Row `d` of point `t`'s head, as a row of the output matrix. -/
def headRow (t : Fin cfg3.N) (d : Fin 64) : Fin 1024 :=
  ⟨64 * (t.val % 16) + d.val, by have := d.isLt; omega⟩

theorem batchOf_val (t : Fin cfg3.N) : (batchOf t).val = t.val / 64 := rfl
theorem headOf_val (t : Fin cfg3.N) : (headOf t).val = t.val % 16 := rfl
theorem tileRow_val (t : Fin cfg3.N) (i : Fin 512) : (tileRow t i).val = 512 * (t.val / 16 % 4) + i.val := rfl
theorem headRow_val (t : Fin cfg3.N) (d : Fin 64) : (headRow t d).val = 64 * (t.val % 16) + d.val := rfl

/-! ## The block indices at a point -/

/-- The query window's block index: (batch, head, tile, 0). -/
theorem index0 : ∀ t : Fin cfg3.N, win3_0.index t (0 : Fin 4) = t.val / 64 ∧ win3_0.index t (1 : Fin 4) = t.val % 16
    ∧ win3_0.index t (2 : Fin 4) = t.val / 16 % 4 ∧ win3_0.index t (3 : Fin 4) = 0 :=
  (by decide +kernel : ∀ t : Fin grid3.N, _)

/-- The key window's block index: (batch, head, 0, 0). -/
theorem index1 : ∀ t : Fin cfg3.N, win3_1.index t (0 : Fin 4) = t.val / 64 ∧ win3_1.index t (1 : Fin 4) = t.val % 16
    ∧ win3_1.index t (2 : Fin 4) = 0 ∧ win3_1.index t (3 : Fin 4) = 0 :=
  (by decide +kernel : ∀ t : Fin grid3.N, _)

/-- The value window's block index: (batch, head, 0, 0). -/
theorem index2 : ∀ t : Fin cfg3.N, win3_2.index t (0 : Fin 4) = t.val / 64 ∧ win3_2.index t (1 : Fin 4) = t.val % 16
    ∧ win3_2.index t (2 : Fin 4) = 0 ∧ win3_2.index t (3 : Fin 4) = 0 :=
  (by decide +kernel : ∀ t : Fin grid3.N, _)

/-- The output-matrix window's block index: (head, 0). -/
theorem index3 : ∀ t : Fin cfg3.N, win3_3.index t (0 : Fin 2) = t.val % 16 ∧ win3_3.index t (1 : Fin 2) = 0 :=
  (by decide +kernel : ∀ t : Fin grid3.N, _)

/-! ## The blocks -/

variable {F : FTy → Type} [FloatOps F]
variable (V : (c : Dev nD) → (b : Ref sig .tc) → Buf (Elt F) ((c : Thread nD τ).loc b))

/-- The query block at point `t`: entry `(i, d)` is the query array's entry at the point's batch and head, row
    `512 · tile + i`, column `d`. -/
theorem query_block (c : Dev nD) (t : Fin cfg3.N) (i : Fin 512) (d : Fin 64) :
    (iblk3 V c 0 t : Vec F S1x1x512x64 .bf16) (ix4 (0 : Fin 1) (0 : Fin 1) i d)
      = (V c main_v15 : S2x16x2048x64.Idx → Elt F .bf16) (ix4 (batchOf t) (headOf t) (tileRow t i) d) := by
  obtain ⟨e0, e1, e2, e3⟩ := index0 t
  unfold iblk3
  rw [View.read_apply]
  show V c main_v15 _ = V c main_v15 _
  congr 1
  funext a
  apply Fin.ext
  match a with
  | ⟨0, _⟩ => show win3_0.index t (0 : Fin 4) * 1 + 1 * 0 = t.val / 64; omega
  | ⟨1, _⟩ => show win3_0.index t (1 : Fin 4) * 1 + 1 * 0 = t.val % 16; omega
  | ⟨2, _⟩ => show win3_0.index t (2 : Fin 4) * 512 + 1 * i.val = 512 * (t.val / 16 % 4) + i.val; omega
  | ⟨3, _⟩ => show win3_0.index t (3 : Fin 4) * 64 + 1 * d.val = d.val; omega

/-- The key block at point `t`: entry `(j, d)` is the key array's entry at the point's batch and head, row `j`,
    column `d`. -/
theorem key_block (c : Dev nD) (t : Fin cfg3.N) (j : Fin 2048) (d : Fin 64) :
    (iblk3 V c 1 t : Vec F S1x1x2048x64 .bf16) (ix4 (0 : Fin 1) (0 : Fin 1) j d)
      = (V c main_v17 : S2x16x2048x64.Idx → Elt F .bf16) (ix4 (batchOf t) (headOf t) j d) := by
  obtain ⟨e0, e1, e2, e3⟩ := index1 t
  unfold iblk3
  rw [View.read_apply]
  show V c main_v17 _ = V c main_v17 _
  congr 1
  funext a
  apply Fin.ext
  match a with
  | ⟨0, _⟩ => show win3_1.index t (0 : Fin 4) * 1 + 1 * 0 = t.val / 64; omega
  | ⟨1, _⟩ => show win3_1.index t (1 : Fin 4) * 1 + 1 * 0 = t.val % 16; omega
  | ⟨2, _⟩ => show win3_1.index t (2 : Fin 4) * 2048 + 1 * j.val = j.val; omega
  | ⟨3, _⟩ => show win3_1.index t (3 : Fin 4) * 64 + 1 * d.val = d.val; omega

/-- The value block at point `t`: entry `(j, d)` is the value array's entry at the point's batch and head, row
    `j`, column `d`. -/
theorem value_block (c : Dev nD) (t : Fin cfg3.N) (j : Fin 2048) (d : Fin 64) :
    (iblk3 V c 2 t : Vec F S1x1x2048x64 .bf16) (ix4 (0 : Fin 1) (0 : Fin 1) j d)
      = (V c main_v19 : S2x16x2048x64.Idx → Elt F .bf16) (ix4 (batchOf t) (headOf t) j d) := by
  obtain ⟨e0, e1, e2, e3⟩ := index2 t
  unfold iblk3
  rw [View.read_apply]
  show V c main_v19 _ = V c main_v19 _
  congr 1
  funext a
  apply Fin.ext
  match a with
  | ⟨0, _⟩ => show win3_2.index t (0 : Fin 4) * 1 + 1 * 0 = t.val / 64; omega
  | ⟨1, _⟩ => show win3_2.index t (1 : Fin 4) * 1 + 1 * 0 = t.val % 16; omega
  | ⟨2, _⟩ => show win3_2.index t (2 : Fin 4) * 2048 + 1 * j.val = j.val; omega
  | ⟨3, _⟩ => show win3_2.index t (3 : Fin 4) * 64 + 1 * d.val = d.val; omega

/-- The output-matrix block at point `t`: entry `(d, e)` is the matrix's entry at row `64 · head + d`, column
    `e`. -/
theorem outmat_block (c : Dev nD) (t : Fin cfg3.N) (d : Fin 64) (e : Fin 1024) :
    (iblk3 V c 3 t : Vec F S64x1024 .bf16) (ix2 d e)
      = (V c main_v10 : S1024x1024.Idx → Elt F .bf16) (ix2 (headRow t d) e) := by
  obtain ⟨e0, e1⟩ := index3 t
  unfold iblk3
  rw [View.read_apply]
  show V c main_v10 _ = V c main_v10 _
  congr 1
  funext a
  apply Fin.ext
  match a with
  | ⟨0, _⟩ => show win3_3.index t (0 : Fin 2) * 64 + 1 * d.val = 64 * (t.val % 16) + d.val; omega
  | ⟨1, _⟩ => show win3_3.index t (1 : Fin 2) * 1024 + 1 * e.val = e.val; omega

end Cert.KernelIdeal.KValue

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibMatmulTransposedRhs.lean ====
/-
  A matrix product whose right operand is contracted on its LAST axis, into a zero accumulator, read at an entry, over
  the extended reals.

  For the dimension numbers `DotDims.transposedRhs M K N` (an `M × K` left operand, an `N × K` right operand, the
  columns of both contracted, no batch axis: the product of the left operand with the right one's transpose) entry
  `(p, q)` of the product accumulated into the zero matrix is `Σ_{k < K} l (p, k) * r (q, k)`: the contraction index
  has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem transposedRhs_lhsIdx (M K N : Nat) (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 p q) _).trans hk

/-- The right operand's index there is `(q, k)`: its row is the output's column. -/
theorem transposedRhs_rhsIdx (M K N : Nat) (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 p q) _).trans hk

/-- ENTRY `(p, q)` OF A PRODUCT WITH THE TRANSPOSE, INTO ZERO: the sum over `k : Fin K` of `l (p, k) * r (q, k)`. -/
theorem matmul_transposedRhs_zero_apply {φ₁ φ₂ : FTy} (M K N : Nat) (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  rw [transposedRhs_lhsIdx, transposedRhs_rhsIdx]

end Cert.Lib

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.AttentionPayload.lean ====
/-
  The attention body's values, read entry by entry over the extended reals.

  One grid point of the attention call holds a block of 512 query rows and all 2048 key and value rows of one head,
  each row 64 columns wide, and the head's 64 rows of the output matrix. The body forms the 512 × 2048 scaled scores
  (query row against key row, times 1/8), turns each row of scores into weights by the softmax taken against the row's
  maximum, stores the weights, combines the value rows with them into the head's 512 × 64 context, and multiplies the
  context by the head's rows of the output matrix: a 512 × 1024 partial result, which it adds to the block carried from
  the heads before it (the zero block at the first head).

  Each statement below reads one of those values at an entry. Changes of float format are the identity on the extended
  reals, a product accumulated into the zero matrix is the plain sum of products, a maximum kept as a column and spread
  back along the row is the row's maximum at every entry, and likewise for the row's sum.
-/
import proofs.«133852_j87926570484461_2_alg».proof.Proof.Gen.KernelIdeal.Skeleton
import proofs.«133852_j87926570484461_2_alg».proof.Proof.MultiHeadSpec
import proofs.«133852_j87926570484461_2_alg».proof.Proof.LibMatmulPlain
import proofs.«133852_j87926570484461_2_alg».proof.Proof.LibMatmulTransposedRhs
import proofs.«133852_j87926570484461_2_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KValue

open Cert.KernelIdeal Cert.KernelIdeal.Gen Idealize.ShloMosaic Idealize.ShloMosaic.ValueIdx

/-! ## Layout steps read at an entry -/

section Layout
variable {α : Type}

/-- A block `[1, 1, a, b]` viewed as the matrix `[a, b]`: entry `(i, d)` is the block's entry `(0, 0, i, d)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (d : Fin b) :
    shapeCast ⟨2, ![a, b]⟩ x h (ix2 i d) = x (ix4 (0 : Fin 1) (0 : Fin 1) i d) :=
  shapeCast_apply x h _ _ (by
    rw [Shape.rowMajor_val_four, Shape.rowMajor_val_two]
    show ((0 * 1 + 0) * a + i.val) * b + d.val = i.val * b + d.val
    simp)

/-- A matrix `[a, b]` viewed as the block `[1, 1, a, b]`: entry `(0, 0, i, d)` is the matrix's entry `(i, d)`. -/
theorem shapeCast_ab_11ab_apply {a b : ℕ} (x : (⟨2, ![a, b]⟩ : Shape).Idx → α)
    (h : (⟨2, ![a, b]⟩ : Shape).ShapeCasts ⟨4, ![1, 1, a, b]⟩) (i : Fin a) (d : Fin b) :
    shapeCast ⟨4, ![1, 1, a, b]⟩ x h (ix4 (0 : Fin 1) (0 : Fin 1) i d) = x (ix2 i d) :=
  shapeCast_apply x h _ _ (by
    rw [Shape.rowMajor_val_four, Shape.rowMajor_val_two]
    show i.val * b + d.val = ((0 * 1 + 0) * a + i.val) * b + d.val
    simp)

/-- A vector of 512 row values kept as a column and spread along the 2048 columns: every entry of row `i` is the
    vector's entry `i`. -/
theorem keptColumn_apply (v : S512.Idx → α) (hc : S512.ShapeCasts S512x1) (hb : S512x1.Broadcasts S512x2048)
    (i : Fin 512) (j : Fin 2048) :
    broadcastTo S512x2048 (shapeCast S512x1 v hc) hb (ix2 i j) = v (ix1 i) :=
  (Cert.Lib.broadcastTo_a1_ab_apply (shapeCast S512x1 v hc) hb i j).trans
    (Cert.Lib.shapeCast_a_a1_apply v hc i (0 : Fin 1))

end Layout

/-! ## The two row reductions -/

/-- Row `i` with column `k` put back in: the entry `(i, k)`. -/
theorem lift_row (h : S512x2048.Reduces [1] S512) (i : Fin 512) (k : Fin 2048) :
    h.lift (ix1 i) k = ix2 i k := by
  funext a
  refine Fin.ext ?_
  match a with
  | ⟨0, _⟩ => rfl
  | ⟨1, _⟩ => rfl

/-- The maximum along a row, taken from `-∞`: the fold of `max` over the row's 2048 entries. -/
theorem rowMax_apply (s : FVec Ideal S512x2048 .f32) (h : S512x2048.Reduces [1] S512)
    (hφ : FKind.Formats .f32) (hacc : (0xFF800000#32 : BitVec 32) = FKind.maximumf.neutral .f32 hφ) (i : Fin 512) :
    multiReduction .maximumf [1] S512 s 0xFF800000#32 h hφ hacc (ix1 i)
      = Cert.MultiHead.rowMax (fun k => s (ix2 i k)) := by
  refine (Ideal.multiReduction_maximumf_single s _ h hφ hacc (ix1 i)).trans ?_
  exact congrArg (fun f : Fin 2048 → EReal => (Finset.univ : Finset (Fin 2048)).fold max Cert.MultiHead.negInf f)
    (funext fun k => congrArg s (lift_row h i k))

/-- The sum along a row: the sum of the row's 2048 entries. -/
theorem rowSum_apply (s : FVec Ideal S512x2048 .f32) (h : S512x2048.Reduces [1] S512)
    (hφ : FKind.Formats .f32) (hacc : (0x00000000#32 : BitVec 32) = FKind.add.neutral .f32 hφ) (i : Fin 512) :
    multiReduction .add [1] S512 s 0x00000000#32 h hφ hacc (ix1 i) = ∑ k : Fin 2048, s (ix2 i k) := by
  refine (Ideal.multiReduction_add_single s _ h hφ hacc (ix1 i)).trans ?_
  exact Finset.sum_congr rfl fun k _ => congrArg s (lift_row h i k)

/-! ## The softmax of a block of scores, row by row -/

/-- Subtract each row's maximum, exponentiate, divide by the row's sum: entry `(i, j)` is the softmax of row `i`
    at `j`. -/
theorem rowSoftmax_apply (s : FVec Ideal S512x2048 .f32) (h : S512x2048.Reduces [1] S512)
    (hc : S512.ShapeCasts S512x1) (hb : S512x1.Broadcasts S512x2048) (hφ : FKind.Formats .f32)
    (hmax : (0xFF800000#32 : BitVec 32) = FKind.maximumf.neutral .f32 hφ)
    (hadd : (0x00000000#32 : BitVec 32) = FKind.add.neutral .f32 hφ) (i : Fin 512) (j : Fin 2048) :
    divf
        (exp (subf s (broadcastTo S512x2048
          (shapeCast S512x1 (multiReduction .maximumf [1] S512 s 0xFF800000#32 h hφ hmax) hc) hb)))
        (broadcastTo S512x2048
          (shapeCast S512x1
            (multiReduction .add [1] S512
              (exp (subf s (broadcastTo S512x2048
                (shapeCast S512x1 (multiReduction .maximumf [1] S512 s 0xFF800000#32 h hφ hmax) hc) hb)))
              0x00000000#32 h hφ hadd) hc) hb)
        (ix2 i j)
      = Cert.MultiHead.softmax (fun k => s (ix2 i k)) j := by
  have hmx : ∀ k : Fin 2048,
      broadcastTo S512x2048 (shapeCast S512x1 (multiReduction .maximumf [1] S512 s 0xFF800000#32 h hφ hmax) hc) hb
          (ix2 i k)
        = Cert.MultiHead.rowMax (fun k => s (ix2 i k)) := fun k =>
    (keptColumn_apply _ hc hb i k).trans (rowMax_apply s h hφ hmax i)
  have he : ∀ k : Fin 2048,
      exp (subf s (broadcastTo S512x2048
          (shapeCast S512x1 (multiReduction .maximumf [1] S512 s 0xFF800000#32 h hφ hmax) hc) hb)) (ix2 i k)
        = Ideal.exp (s (ix2 i k) - Cert.MultiHead.rowMax (fun k => s (ix2 i k))) := fun k =>
    congrArg (fun m : EReal => Ideal.exp (s (ix2 i k) - m)) (hmx k)
  refine (divf_apply _ _ (ix2 i j)).trans ?_
  refine congrArg₂ Ideal.div (he j) ?_
  refine (keptColumn_apply _ hc hb i j).trans ?_
  refine (rowSum_apply _ h hφ hadd i).trans ?_
  exact Finset.sum_congr rfl fun k _ => he k

/-! ## The scaled scores -/

/-- The scaled scores of row `i` of a query block against the rows of a key block. -/
def blkScore (x0 : Vec Ideal S1x1x512x64 .bf16) (x1 : Vec Ideal S1x1x2048x64 .bf16) (i : Fin 512) (j : Fin 2048) : EReal :=
  (∑ d : Fin 64, x0 (ix4 (0 : Fin 1) (0 : Fin 1) i d) * x1 (ix4 (0 : Fin 1) (0 : Fin 1) j d)) * Cert.MultiHead.scale

/-- The product of the query block with the transposed key block, times the splat of `1/8`, at `(i, j)`. -/
theorem scores_apply (x0 : Vec Ideal S1x1x512x64 .bf16) (x1 : Vec Ideal S1x1x2048x64 .bf16)
    (h0 : S1x1x512x64.ShapeCasts S512x64) (h1 : S1x1x2048x64.ShapeCasts S2048x64) (i : Fin 512) (j : Fin 2048) :
    mulf
        (matmul dot_S512x64_S2048x64_S512x2048_1_1_0_0_n_n none
          (shapeCast S512x64 x0 h0 : FVec Ideal S512x64 .bf16) (shapeCast S2048x64 x1 h1 : FVec Ideal S2048x64 .bf16)
          (constant (F := Ideal) S512x2048 .f32 0x00000000#32))
        (broadcast S512x2048 (Scalar.ofBits (F := Ideal) .f32 0x3E000000#32)) (ix2 i j)
      = blkScore x0 x1 i j := by
  have hd : dot_S512x64_S2048x64_S512x2048_1_1_0_0_n_n = DotDims.transposedRhs 512 64 2048 := rfl
  refine (mulf_apply _ _ (ix2 i j)).trans ?_
  refine congrArg₂ (· * ·) ?_ rfl
  rw [hd]
  refine (Cert.Lib.matmul_transposedRhs_zero_apply 512 64 2048 none _ _ i j).trans ?_
  exact Finset.sum_congr rfl fun d _ =>
    congrArg₂ (· * ·) (shapeCast_11ab_ab_apply x0 h0 i d) (shapeCast_11ab_ab_apply x1 h1 j d)

/-! ## The body's values -/

/-- The attention weights of a block: row `i` is the softmax of row `i` of the scaled scores. -/
theorem pay3_apply (x0 : Vec Ideal S1x1x512x64 .bf16) (x1 : Vec Ideal S1x1x2048x64 .bf16) (i : Fin 512) (j : Fin 2048) :
    k3_pay3 (F := Ideal) x0 x1 (ix2 i j) = Cert.MultiHead.softmax (blkScore x0 x1 i) j := by
  unfold k3_pay3
  refine (rowSoftmax_apply _ _ _ _ _ _ _ i j).trans ?_
  exact congrArg (fun s : Fin 2048 → EReal => Cert.MultiHead.softmax s j)
    (funext fun k => scores_apply x0 x1 _ _ i k)

/-- The weights as stored, a `[1, 1, 512, 2048]` block. -/
theorem pay4_apply (x0 : Vec Ideal S1x1x512x64 .bf16) (x1 : Vec Ideal S1x1x2048x64 .bf16) (i : Fin 512) (j : Fin 2048) :
    k3_pay4 (F := Ideal) x0 x1 (ix4 (0 : Fin 1) (0 : Fin 1) i j) = Cert.MultiHead.softmax (blkScore x0 x1 i) j := by
  unfold k3_pay4
  exact (shapeCast_ab_11ab_apply (k3_pay3 (F := Ideal) x0 x1) _ i j).trans (pay3_apply x0 x1 i j)

/-- The head's partial result: its context (the weights' combination of the value rows) times its 64 rows of the
    output matrix. -/
theorem pay5_apply (x0 : Vec Ideal S1x1x512x64 .bf16) (x1 : Vec Ideal S1x1x2048x64 .bf16)
    (x2 : Vec Ideal S1x1x2048x64 .bf16) (x3 : Vec Ideal S64x1024 .bf16) (i : Fin 512) (e : Fin 1024) :
    k3_pay5 (F := Ideal) x0 x1 x2 x3 (ix2 i e)
      = ∑ d : Fin 64, (∑ j : Fin 2048, Cert.MultiHead.softmax (blkScore x0 x1 i) j * x2 (ix4 (0 : Fin 1) (0 : Fin 1) j d))
          * x3 (ix2 d e) := by
  have hd1 : dot_S512x2048_S2048x64_S512x64_1_0_0_1_n_n = DotDims.plain 512 2048 64 := rfl
  have hd2 : dot_S512x64_S64x1024_S512x1024_1_0_0_1_n_n = DotDims.plain 512 64 1024 := rfl
  unfold k3_pay5
  rw [hd1, hd2]
  refine (Cert.Lib.matmul_plain_zero_apply 512 64 1024 none _ _ i e).trans ?_
  refine Finset.sum_congr rfl fun d _ => congrArg₂ (· * ·) ?_ (congrFun (shapeCast_self x3 _) (ix2 d e))
  refine (Cert.Lib.matmul_plain_zero_apply 512 2048 64 none _ _ i d).trans ?_
  exact Finset.sum_congr rfl fun j _ =>
    congrArg₂ (· * ·) (pay3_apply x0 x1 i j) (shapeCast_11ab_ab_apply x2 _ j d)

/-- The block a first head starts from is zero. -/
theorem pay1_apply (i : Fin 512) (e : Fin 1024) : k3_pay1 (F := Ideal) (ix2 i e) = 0 :=
  Ideal.ofBits_zero_f32

/-- The carried block plus this head's partial result. -/
theorem pay2_apply (p : FVec Ideal S512x1024 .f32) (a : Vec Ideal S512x1024 .f32) (i : Fin 512) (e : Fin 1024) :
    k3_pay2 (F := Ideal) p a (ix2 i e) = a (ix2 i e) + p (ix2 i e) := by
  unfold k3_pay2
  exact congrArg (· + p (ix2 i e)) (congrFun (shapeCast_self a _) (ix2 i e))

end Cert.KernelIdeal.KValue

end
-- ==== Proof.AttentionPieces.lean ====
/-
  What one call of the attention body leaves in its two output blocks, as values of the blocks it loaded.

  The body computes, from the query block, the key block, the value block and the head's 64 rows of the output matrix,
  the block of attention weights and this head's contribution to the projected output. It stores the weights block
  whole. For the output block it distinguishes the first head from the others: at the first head it stores the zero
  block and then zero plus the contribution; at a later head it stores the block as the previous head left it plus
  the contribution. Each store covers its whole block, so what a block holds afterwards is the last value stored.
-/
import proofs.«133852_j87926570484461_2_alg».proof.Proof.Gen.KernelIdeal.Frame
import Idealize.ShloMosaic.Lib.Pipeline.Value
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic Idealize.SL.Sem

variable {F : FTy → Type} [FloatOps F]

/-- A block stored or loaded whole starts at the origin: rank 2. -/
theorem zero2 : (![0, 0] : Fin 2 → Nat) = fun _ => 0 := funext fun a => by fin_cases a <;> rfl
/-- A block stored or loaded whole starts at the origin: rank 4. -/
theorem zero4 : (![0, 0, 0, 0] : Fin 4 → Nat) = fun _ => 0 := funext fun a => by fin_cases a <;> rfl

section Pieces

variable (c : Dev nD) (i : grid3.Coords)
  (a3 : Memref sig .tc .vmem S1x1x512x64 .bf16) (h3 : a3.IsWhole)
  (a4 : Memref sig .tc .vmem S1x1x2048x64 .bf16) (h4 : a4.IsWhole)
  (a5 : Memref sig .tc .vmem S1x1x2048x64 .bf16) (h5 : a5.IsWhole)
  (a6 : Memref sig .tc .vmem S64x1024 .bf16) (h6 : a6.IsWhole)
  (a7 : Memref sig .tc .vmem S1x1x512x2048 .f32) (h7 : a7.IsWhole)
  (a8 : Memref sig .tc .vmem S512x1024 .f32) (h8 : a8.IsWhole)
  (x0 : Vec F S1x1x512x64 .bf16) (x1 x2 : Vec F S1x1x2048x64 .bf16) (x3 : Vec F S64x1024 .bf16)

/-- At the first head the weights block ends at the softmax block of the query and key blocks. -/
theorem weights_first (hc : cond3_0 i) :
    out3_A_4 c i a3 h3 a4 h4 a5 h5 a6 h6 a7 h7 a8 h8 hc x0 x1 x2 x3 = k3_pay4 x0 x1 := by
  unfold out3_A_4
  rw [View.read_writes_eq_canon _ _ _ (cover3_A_4 c i a3 h3 a4 h4 a5 h5 a6 h6 a7 h7 a8 h8 hc x0 x1 x2 x3)]
  unfold kernelRun3_A
  dsimp only
  rw [View.canon_unit_zero zero4]
  simp only [View.readAt_eq_ld, h3.read_unread, h4.read_unread, View.ld_unit_zero (S := S1x1x512x64) zero4,
    View.ld_unit_zero (S := S1x1x2048x64) zero4]

/-- At a later head likewise. -/
theorem weights_later (hc : ¬cond3_0 i) (xo5 : Vec F S512x1024 .f32) :
    out3_B_4 c i a3 h3 a4 h4 a5 h5 a6 h6 a7 h7 a8 h8 hc x0 x1 x2 x3 xo5 = k3_pay4 x0 x1 := by
  unfold out3_B_4
  rw [View.read_writes_eq_canon _ _ _ (cover3_B_4 c i a3 h3 a4 h4 a5 h5 a6 h6 a7 h7 a8 h8 hc x0 x1 x2 x3 xo5)]
  unfold kernelRun3_B
  dsimp only
  rw [View.canon_unit_zero zero4]
  simp only [View.readAt_eq_ld, h3.read_unread, h4.read_unread, View.ld_unit_zero (S := S1x1x512x64) zero4,
    View.ld_unit_zero (S := S1x1x2048x64) zero4]

/-- At the first head the output block ends at the zero block plus this head's contribution. -/
theorem output_first (hc : cond3_0 i) :
    out3_A_5 c i a3 h3 a4 h4 a5 h5 a6 h6 a7 h7 a8 h8 hc x0 x1 x2 x3
      = k3_pay2 (k3_pay5 x0 x1 x2 x3) (k3_pay1 (F := F)) := by
  unfold out3_A_5
  rw [View.read_writes_eq_canon _ _ _ (cover3_A_5 c i a3 h3 a4 h4 a5 h5 a6 h6 a7 h7 a8 h8 hc x0 x1 x2 x3)]
  unfold kernelRun3_A
  dsimp only
  sl_unfold_words
  rw [View.canon_cons_unit_zero (S := S512x1024) zero2, View.readCov_unit_zero (S := S512x1024) _ zero2]
  simp only [View.readAt_eq_ld, h3.read_unread, h4.read_unread, h5.read_unread, h6.read_unread,
    View.ld_unit_zero (S := S1x1x512x64) zero4, View.ld_unit_zero (S := S1x1x2048x64) zero4,
    View.ld_unit_zero (S := S64x1024) zero2, View.ld_unit_zero (S := S512x1024) zero2]

/-- At a later head the output block ends at what it held plus this head's contribution. -/
theorem output_later (hc : ¬cond3_0 i) (xo5 : Vec F S512x1024 .f32) :
    out3_B_5 c i a3 h3 a4 h4 a5 h5 a6 h6 a7 h7 a8 h8 hc x0 x1 x2 x3 xo5 = k3_pay2 (k3_pay5 x0 x1 x2 x3) xo5 := by
  unfold out3_B_5
  rw [View.read_writes_eq_canon _ _ _ (cover3_B_5 c i a3 h3 a4 h4 a5 h5 a6 h6 a7 h7 a8 h8 hc x0 x1 x2 x3 xo5)]
  unfold kernelRun3_B
  dsimp only
  sl_unfold_words
  rw [View.canon_unit_zero zero2]
  simp only [View.readAt_eq_ld, h3.read_unread, h4.read_unread, h5.read_unread, h6.read_unread, h8.read_unread,
    View.ld_unit_zero (S := S1x1x512x64) zero4, View.ld_unit_zero (S := S1x1x2048x64) zero4,
    View.ld_unit_zero (S := S64x1024) zero2, View.ld_unit_zero (S := S512x1024) zero2]

end Pieces

end Cert.KernelIdeal.KValue

end
-- ==== Proof.AttentionAccum.lean ====
/-
  The two output blocks after each grid point of the attention call.

  The grid runs over batch, query tile and head, the head fastest: point `n` is head `n % 16` of the tile that starts
  at point `n - n % 16`. After every point the weights block holds that point's softmax block. The output block is not
  written back between the heads of one tile: at the first head it is set to zero plus that head's contribution, at
  each later head the head's contribution is added. So after point `n` it holds, entry by entry, the sum of the
  contributions of the points `n - n % 16, …, n` — over the extended reals an ordered chain of additions from zero is
  the finite sum of its terms.
-/
import proofs.«133852_j87926570484461_2_alg».proof.Proof.AttentionPieces
import proofs.«133852_j87926570484461_2_alg».proof.Proof.AttentionPayload

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem

section AnyValues

variable {F : FTy → Type} [FloatOps F]
variable (V : (c : Dev nD) → (b : Ref sig .tc) → Buf (Elt F) ((c : Thread nD τ).loc b))

/-- The head's contribution to the output block at point `t`: the body's last product, of the point's four input blocks. -/
def contribution (c : Dev nD) (t : Fin cfg3.N) : FVec F S512x1024 .f32 :=
  k3_pay5 (iblk3 V c 0 t) (iblk3 V c 1 t) (iblk3 V c 2 t) (iblk3 V c 3 t)

set_option maxHeartbeats 4000000 in
/-- After any point the weights block is the softmax block of the point's query and key blocks. -/
theorem weights_at (c : Dev nD) (t : Fin cfg3.N) :
    (outsAt3 V c t.val t.isLt).1 = k3_pay4 (iblk3 V c 0 t) (iblk3 V c 1 t) := by
  by_cases h0 : t.val % 16 = 0
  · rw [outsAt3_A V c t h0]
    dsimp only
    exact weights_first c (grid3.coords t) (ms3_0 t) (hs3_0 t) (ms3_1 t) (hs3_1 t) (ms3_2 t) (hs3_2 t) (ms3_3 t) (hs3_3 t)
      (ms3_4 t) (hs3_4 t) (ms3_5 t) (hs3_5 t) (iblk3 V c 0 t) (iblk3 V c 1 t) (iblk3 V c 2 t) (iblk3 V c 3 t)
      ((hcond3_0 t).mpr h0)
  · rw [outsAt3_B V c t h0]
    dsimp only
    exact weights_later c (grid3.coords t) (ms3_0 t) (hs3_0 t) (ms3_1 t) (hs3_1 t) (ms3_2 t) (hs3_2 t) (ms3_3 t) (hs3_3 t)
      (ms3_4 t) (hs3_4 t) (ms3_5 t) (hs3_5 t) (iblk3 V c 0 t) (iblk3 V c 1 t) (iblk3 V c 2 t) (iblk3 V c 3 t)
      (fun h => h0 ((hcond3_0 t).mp h)) (outsAt3 V c (t.val - 1) (Nat.lt_of_le_of_lt (Nat.sub_le _ _) t.isLt)).2

set_option maxHeartbeats 4000000 in
/-- After a tile's first head the output block is the zero block plus that head's contribution. -/
theorem output_at_first (c : Dev nD) (t : Fin cfg3.N) (h0 : t.val % 16 = 0) :
    (outsAt3 V c t.val t.isLt).2 = k3_pay2 (contribution V c t) (k3_pay1 (F := F)) := by
  rw [outsAt3_A V c t h0]
  dsimp only
  exact output_first c (grid3.coords t) (ms3_0 t) (hs3_0 t) (ms3_1 t) (hs3_1 t) (ms3_2 t) (hs3_2 t) (ms3_3 t) (hs3_3 t)
    (ms3_4 t) (hs3_4 t) (ms3_5 t) (hs3_5 t) (iblk3 V c 0 t) (iblk3 V c 1 t) (iblk3 V c 2 t) (iblk3 V c 3 t)
    ((hcond3_0 t).mpr h0)

set_option maxHeartbeats 4000000 in
/-- After a later head it is what the previous point left plus this head's contribution. -/
theorem output_at_later (c : Dev nD) (t : Fin cfg3.N) (h0 : ¬t.val % 16 = 0) :
    (outsAt3 V c t.val t.isLt).2
      = k3_pay2 (contribution V c t) (outsAt3 V c (t.val - 1) (Nat.lt_of_le_of_lt (Nat.sub_le _ _) t.isLt)).2 := by
  rw [outsAt3_B V c t h0]
  dsimp only
  exact output_later c (grid3.coords t) (ms3_0 t) (hs3_0 t) (ms3_1 t) (hs3_1 t) (ms3_2 t) (hs3_2 t) (ms3_3 t) (hs3_3 t)
    (ms3_4 t) (hs3_4 t) (ms3_5 t) (hs3_5 t) (iblk3 V c 0 t) (iblk3 V c 1 t) (iblk3 V c 2 t) (iblk3 V c 3 t)
    (fun h => h0 ((hcond3_0 t).mp h)) (outsAt3 V c (t.val - 1) (Nat.lt_of_le_of_lt (Nat.sub_le _ _) t.isLt)).2

end AnyValues

section ExtendedReals

variable (V : (c : Dev nD) → (b : Ref sig .tc) → Buf (Elt Ideal) ((c : Thread nD τ).loc b))

/-- Entry `(i, e)` of the contribution at point number `n` (zero past the grid). -/
def contribAt (c : Dev nD) (i : Fin 512) (e : Fin 1024) (n : ℕ) : EReal :=
  if h : n < cfg3.N then contribution V c ⟨n, h⟩ (ix2 i e) else 0

theorem contribAt_of_lt (c : Dev nD) (i : Fin 512) (e : Fin 1024) (n : ℕ) (h : n < cfg3.N) :
    contribAt V c i e n = contribution V c ⟨n, h⟩ (ix2 i e) := dif_pos h

/-- After point `n` the output block's entry `(i, e)` is the sum of the contributions of the tile's heads so far. -/
theorem output_sum (c : Dev nD) (i : Fin 512) (e : Fin 1024) : ∀ (n : ℕ) (hn : n < cfg3.N),
    (outsAt3 V c n hn).2 (ix2 i e) = ∑ k ∈ Finset.range (n % 16 + 1), contribAt V c i e (n - n % 16 + k)
  | 0, hn => by
    have e0 := output_at_first V c ⟨0, hn⟩ rfl
    rw [show (outsAt3 V c 0 hn).2 = k3_pay2 (contribution V c ⟨0, hn⟩) (k3_pay1 (F := Ideal)) from e0,
      pay2_apply, pay1_apply, zero_add]
    simp only [Nat.zero_mod, Nat.sub_zero, zero_add, Finset.sum_range_one]
    exact (contribAt_of_lt V c i e 0 hn).symm
  | n + 1, hn => by
    by_cases h0 : (n + 1) % 16 = 0
    · have e0 := output_at_first V c ⟨n + 1, hn⟩ h0
      rw [show (outsAt3 V c (n + 1) hn).2 = k3_pay2 (contribution V c ⟨n + 1, hn⟩) (k3_pay1 (F := Ideal)) from e0,
        pay2_apply, pay1_apply, zero_add, h0]
      simp only [Nat.sub_zero, zero_add, Finset.sum_range_one, add_zero]
      exact (contribAt_of_lt V c i e (n + 1) hn).symm
    · have e0 := output_at_later V c ⟨n + 1, hn⟩ h0
      rw [show (outsAt3 V c (n + 1) hn).2
          = k3_pay2 (contribution V c ⟨n + 1, hn⟩) (outsAt3 V c n (Nat.lt_of_succ_lt hn)).2 from e0,
        pay2_apply, output_sum c i e n (Nat.lt_of_succ_lt hn)]
      have h1 : (n + 1) % 16 = n % 16 + 1 := by omega
      have h2 : n + 1 - (n + 1) % 16 = n - n % 16 := by omega
      have h3 : n - n % 16 + (n % 16 + 1) = n + 1 := by omega
      rw [h2, h1, Finset.sum_range_succ _ (n % 16 + 1), h3, contribAt_of_lt V c i e (n + 1) hn]

end ExtendedReals

end Cert.KernelIdeal.KValue

end
-- ==== Proof.AttentionArrays.lean ====
/-
  The attention call's two output arrays after the run, as functions of the arrays it reads.

  The call reads the query, key and value arrays, each laid out by batch, head, sequence row and the head's 64
  columns, and the output matrix staged with rows the input columns. Reading the first three by batch, row and model
  column `64 · head + d`, and the matrix transposed, puts every grid point's values in the specification's terms:
  the point's weights block is the softmax of the scaled scores of the tile's query rows against all key rows of its
  batch and head, and its contribution to the output block is the head's context against the head's 64 columns of
  the output matrix.

  The weights array is written back at every point, and the 128 points' blocks tile it: entry (b, h, r, j) lies in the
  block of the point of batch `b`, tile `r / 512`, head `h`. The output block is carried through the sixteen heads of
  a tile and written back after the last one, when it holds the sum of the sixteen heads' contributions, which is the
  output layer's sum over heads and their columns; the eight tiles' blocks of 512 rows tile the 4096 rows, row
  `2048 · batch + r`. Every sum is a finite sum of extended reals taken in one order on both sides; nothing is
  regrouped across an infinity.
-/
import proofs.«133852_j87926570484461_2_alg».proof.Proof.AttentionBlocks
import proofs.«133852_j87926570484461_2_alg».proof.Proof.AttentionPayload
import proofs.«133852_j87926570484461_2_alg».proof.Proof.AttentionAccum

set_option maxRecDepth 16384

noncomputable section

open scoped BigOperators

namespace Cert.KernelIdeal.KValue

open Cert.KernelIdeal Cert.KernelIdeal.Gen
open Idealize.ShloMosaic Idealize.ShloMosaic.TcCoe Idealize.ShloMosaic.ValueIdx Idealize.SL.Sem

/-! ## The arrays the call reads, by batch, row and model column -/

section Entry

variable (V : (c : Dev nD) → (b : Ref sig .tc) → Buf (Elt Ideal) ((c : Thread nD τ).loc b))

/-- The head that owns model column `x`. -/
def headOfCol (x : Fin 1024) : Fin 16 := ⟨x.val / 64, by have := x.isLt; omega⟩

/-- The place of model column `x` among its head's 64 columns. -/
def offOfCol (x : Fin 1024) : Fin 64 := ⟨x.val % 64, by omega⟩

theorem headOfCol_col (h : Fin 16) (d : Fin 64) : headOfCol (Cert.MultiHead.col h d) = h :=
  Fin.ext (by show (64 * h.val + d.val) / 64 = h.val; have := d.isLt; omega)

theorem offOfCol_col (h : Fin 16) (d : Fin 64) : offOfCol (Cert.MultiHead.col h d) = d :=
  Fin.ext (by show (64 * h.val + d.val) % 64 = d.val; have := d.isLt; omega)

/-- The query array by batch, row and model column: column `64·h + d` is entry `d` of head `h`'s slab. -/
def qOf (c : Dev nD) (b : Fin 2) (t : Fin 2048) (x : Fin 1024) : EReal :=
  (V c main_v15 : S2x16x2048x64.Idx → EReal) (ix4 b (headOfCol x) t (offOfCol x))

/-- The key array likewise. -/
def kOf (c : Dev nD) (b : Fin 2) (t : Fin 2048) (x : Fin 1024) : EReal :=
  (V c main_v17 : S2x16x2048x64.Idx → EReal) (ix4 b (headOfCol x) t (offOfCol x))

/-- The value array likewise. -/
def vOf (c : Dev nD) (b : Fin 2) (t : Fin 2048) (x : Fin 1024) : EReal :=
  (V c main_v19 : S2x16x2048x64.Idx → EReal) (ix4 b (headOfCol x) t (offOfCol x))

/-- The output matrix with rows the output columns: the staged matrix is its transpose. -/
def woOf (c : Dev nD) : Cert.MultiHead.SMat.Idx → EReal := fun i =>
  (V c main_v10 : S1024x1024.Idx → EReal) (ix2 (i 1) (i 0))

theorem qOf_col (c : Dev nD) (b : Fin 2) (t : Fin 2048) (h : Fin 16) (d : Fin 64) :
    qOf V c b t (Cert.MultiHead.col h d) = (V c main_v15 : S2x16x2048x64.Idx → EReal) (ix4 b h t d) := by
  unfold qOf; rw [headOfCol_col, offOfCol_col]

theorem kOf_col (c : Dev nD) (b : Fin 2) (t : Fin 2048) (h : Fin 16) (d : Fin 64) :
    kOf V c b t (Cert.MultiHead.col h d) = (V c main_v17 : S2x16x2048x64.Idx → EReal) (ix4 b h t d) := by
  unfold kOf; rw [headOfCol_col, offOfCol_col]

theorem vOf_col (c : Dev nD) (b : Fin 2) (t : Fin 2048) (h : Fin 16) (d : Fin 64) :
    vOf V c b t (Cert.MultiHead.col h d) = (V c main_v19 : S2x16x2048x64.Idx → EReal) (ix4 b h t d) := by
  unfold vOf; rw [headOfCol_col, offOfCol_col]

theorem woOf_apply (c : Dev nD) (e x : Fin 1024) :
    woOf V c (ix2 e x) = (V c main_v10 : S1024x1024.Idx → EReal) (ix2 x e) := rfl

/-- Row `d` of a point's head among the output matrix's rows is model column `64·head + d`. -/
theorem headRow_eq_col (t : Fin cfg3.N) (d : Fin 64) : headRow t d = Cert.MultiHead.col (headOf t) d := Fin.ext rfl

/-! ## One grid point, in the specification's terms -/

/-- The scores of a point's query block against its key block are the specification's scores of the point's batch and
    head, at the tile's rows. -/
theorem blkScore_point (c : Dev nD) (t : Fin cfg3.N) (i : Fin 512) :
    blkScore (iblk3 V c 0 t) (iblk3 V c 1 t) i
      = Cert.MultiHead.score (qOf V c) (kOf V c) (batchOf t) (headOf t) (tileRow t i) := by
  funext j
  unfold blkScore Cert.MultiHead.score
  refine congrArg (· * Cert.MultiHead.scale) ?_
  refine Finset.sum_congr rfl fun d _ => ?_
  exact (congrArg₂ (fun a b : EReal => a * b) (query_block V c t i d) (key_block V c t j d)).trans
    (congrArg₂ (fun a b : EReal => a * b) (qOf_col V c _ _ _ _).symm (kOf_col V c _ _ _ _).symm)

/-- The weights block of a point, entry by entry. -/
theorem weights_point (c : Dev nD) (t : Fin cfg3.N) (i : Fin 512) (j : Fin 2048) :
    k3_pay4 (F := Ideal) (iblk3 V c 0 t) (iblk3 V c 1 t) (ix4 (0 : Fin 1) (0 : Fin 1) i j)
      = Cert.MultiHead.attnWeight (qOf V c) (kOf V c) (batchOf t) (headOf t) (tileRow t i) j :=
  (pay4_apply _ _ i j).trans (congrArg (fun s => Cert.MultiHead.softmax s j) (blkScore_point V c t i))

/-- The contribution of a point to its output block, entry by entry: the head's context against the head's columns
    of the output matrix. -/
theorem contribution_point (c : Dev nD) (t : Fin cfg3.N) (i : Fin 512) (e : Fin 1024) :
    contribution V c t (ix2 i e)
      = ∑ d : Fin 64, Cert.MultiHead.context (qOf V c) (kOf V c) (vOf V c) (batchOf t) (headOf t) (tileRow t i) d
          * woOf V c (ix2 e (Cert.MultiHead.col (headOf t) d)) := by
  unfold contribution
  refine (pay5_apply _ _ _ _ i e).trans ?_
  refine Finset.sum_congr rfl fun d _ => congrArg₂ (fun a b : EReal => a * b) ?_ ?_
  · unfold Cert.MultiHead.context
    refine Finset.sum_congr rfl fun j _ => congrArg₂ (fun a b : EReal => a * b) ?_ ?_
    · exact congrArg (fun s => Cert.MultiHead.softmax s j) (blkScore_point V c t i)
    · exact (value_block V c t j d).trans (vOf_col V c _ _ _ _).symm
  · refine (outmat_block V c t d e).trans ?_
    rw [headRow_eq_col]
    rfl

end Entry

/-! ## The weights array -/

section Weights

variable (V : (c : Dev nD) → (b : Ref sig .tc) → Buf (Elt Ideal) ((c : Thread nD τ).loc b))

/-- The weights window's block index: (batch, head, tile, 0). -/
theorem index4 : ∀ t : Fin cfg3.N, win3_4.index t (0 : Fin 4) = t.val / 64 ∧ win3_4.index t (1 : Fin 4) = t.val % 16
    ∧ win3_4.index t (2 : Fin 4) = t.val / 16 % 4 ∧ win3_4.index t (3 : Fin 4) = 0 :=
  (by decide +kernel : ∀ t : Fin grid3.N, _)

/-- What the weights array is to hold: at (batch, head, query row, key row) the attention weight. -/
def weightsOf (c : Dev nD) : S2x16x2048x2048.Idx → EReal := fun i =>
  Cert.MultiHead.attnWeight (qOf V c) (kOf V c) (i 0) (i 1) (i 2) (i 3)

theorem attnWeight_congr (q k : Fin 2 → Fin 2048 → Fin 1024 → EReal) {b b' : Fin 2} {h h' : Fin 16}
    {i i' j j' : Fin 2048} (hb : b = b') (hh : h = h') (hi : i = i') (hj : j = j') :
    Cert.MultiHead.attnWeight q k b h i j = Cert.MultiHead.attnWeight q k b' h' i' j' := by
  subst hb hh hi hj; rfl

/-- The weights block of a point at any entry of the block. -/
theorem weights_entry (c : Dev nD) (t : Fin cfg3.N) (y : S1x1x512x2048.Idx) :
    k3_pay4 (F := Ideal) (iblk3 V c 0 t) (iblk3 V c 1 t) y
      = Cert.MultiHead.attnWeight (qOf V c) (kOf V c) (batchOf t) (headOf t) (tileRow t (y 2)) (y 3) := by
  obtain ⟨a, b, i, j, rfl⟩ : ∃ (a : Fin 1) (b : Fin 1) (i : Fin 512) (j : Fin 2048), y = ix4 a b i j :=
    ⟨y 0, y 1, y 2, y 3, eq_ix4 y⟩
  obtain rfl := Fin.fin_one_eq_zero a
  obtain rfl := Fin.fin_one_eq_zero b
  exact weights_point V c t i j

/-- What a point writes back to the weights array is its block of `weightsOf`. -/
theorem weights_flushed (c : Dev nD) (t : Fin cfg3.N) :
    (dat3 V c).flushed 4 t = ((cfg3.win 4).blk t).view.read (Elt Ideal) (weightsOf V c) := by
  obtain ⟨e0, e1, e2, e3⟩ := index4 t
  show (cfg3.win 4).cut (grid3.coords t) ((dat3 V c).after 4 t) = _
  rw [after3_4, weights_at]
  funext y
  rw [View.read_apply]
  show k3_pay4 (F := Ideal) (iblk3 V c 0 t) (iblk3 V c 1 t) _ = weightsOf V c _
  refine (weights_entry V c t _).trans ?_
  have y0 : (y 0).val < 1 := (y 0).isLt
  have y1 : (y 1).val < 1 := (y 1).isLt
  refine attnWeight_congr _ _ (Fin.ext ?_) (Fin.ext ?_) (Fin.ext ?_) (Fin.ext ?_)
  · show t.val / 64 = win3_4.index t (0 : Fin 4) * 1 + 1 * (y 0).val; omega
  · show t.val % 16 = win3_4.index t (1 : Fin 4) * 1 + 1 * (y 1).val; omega
  · show 512 * (t.val / 16 % 4) + (y 2).val = win3_4.index t (2 : Fin 4) * 512 + 1 * (y 2).val; omega
  · show (y 3).val = win3_4.index t (3 : Fin 4) * 2048 + 1 * (y 3).val; omega

/-- Every entry of the weights array is in some point's block: entry (b, h, r, j) in that of the point of batch `b`,
    tile `r / 512` and head `h`. -/
theorem weights_cover (i : S2x16x2048x2048.Idx) :
    ∃ t : Fin cfg3.N, (cfg3.win 4).flush t = true ∧ i ∈ ((cfg3.win 4).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨n, hn⟩ : ∃ n : ℕ, n = 64 * (i 0).val + 16 * ((i 2).val / 512) + (i 1).val := ⟨_, rfl⟩
  have hlt : n < cfg3.N := (show n < 128 by omega).trans_eq N_3.symm
  have e0 : win3_4.index ⟨n, hlt⟩ (0 : Fin 4) = n / 64 := (index4 ⟨n, hlt⟩).1
  have e1 : win3_4.index ⟨n, hlt⟩ (1 : Fin 4) = n % 16 := (index4 ⟨n, hlt⟩).2.1
  have e2 : win3_4.index ⟨n, hlt⟩ (2 : Fin 4) = n / 16 % 4 := (index4 ⟨n, hlt⟩).2.2.1
  have e3 : win3_4.index ⟨n, hlt⟩ (3 : Fin 4) = 0 := (index4 ⟨n, hlt⟩).2.2.2
  refine ⟨⟨n, hlt⟩, flush3_4 _, ?_⟩
  show i ∈ ((View.whole main_v20_0).slice (win3_4.rect ⟨n, hlt⟩)).set
  rw [View.set_slice_whole, Rect.mem_set_unit]
  intro a
  match a with
  | ⟨0, _⟩ =>
    show win3_4.index ⟨n, hlt⟩ (0 : Fin 4) * 1 ≤ (i 0).val ∧ (i 0).val < win3_4.index ⟨n, hlt⟩ (0 : Fin 4) * 1 + 1
    omega
  | ⟨1, _⟩ =>
    show win3_4.index ⟨n, hlt⟩ (1 : Fin 4) * 1 ≤ (i 1).val ∧ (i 1).val < win3_4.index ⟨n, hlt⟩ (1 : Fin 4) * 1 + 1
    omega
  | ⟨2, _⟩ =>
    show win3_4.index ⟨n, hlt⟩ (2 : Fin 4) * 512 ≤ (i 2).val ∧ (i 2).val < win3_4.index ⟨n, hlt⟩ (2 : Fin 4) * 512 + 512
    omega
  | ⟨3, _⟩ =>
    show win3_4.index ⟨n, hlt⟩ (3 : Fin 4) * 2048 ≤ (i 3).val ∧ (i 3).val < win3_4.index ⟨n, hlt⟩ (3 : Fin 4) * 2048 + 2048
    omega

/-- THE WEIGHTS ARRAY after the call: the attention weights of the entry arrays. -/
theorem weights_array (c : Dev nD) :
    ((dat3 V c).arrAt 4 cfg3.N : S2x16x2048x2048.Idx → EReal)
      = fun i => Cert.MultiHead.attnWeight (qOf V c) (kOf V c) (i 0) (i 1) (i 2) (i 3) :=
  (dat3 V c).arrAt_eq_of_cover 4 (weightsOf V c) (fun t _ => weights_flushed V c t) weights_cover

end Weights

/-! ## The output array -/

section Output

variable (V : (c : Dev nD) → (b : Ref sig .tc) → Buf (Elt Ideal) ((c : Thread nD τ).loc b))

/-- The output window's block index: (4 · batch + tile, 0). -/
theorem index5 : ∀ t : Fin cfg3.N, win3_5.index t (0 : Fin 2) = 4 * (t.val / 64) + t.val / 16 % 4
    ∧ win3_5.index t (1 : Fin 2) = 0 :=
  (by decide +kernel : ∀ t : Fin grid3.N, _)

/-- What the output array is to hold: row `2048 · b + r` is the output layer's result for batch `b`, row `r`. -/
def outputOf (c : Dev nD) : S4096x1024.Idx → EReal := fun i =>
  Cert.MultiHead.outProj (qOf V c) (kOf V c) (vOf V c) (woOf V c)
    ⟨(i 0).val / 2048, by have h : (i 0).val < 4096 := (i 0).isLt; omega⟩ ⟨(i 0).val % 2048, by omega⟩ (i 1)

theorem outProj_congr (q k v : Fin 2 → Fin 2048 → Fin 1024 → EReal) (wo : Cert.MultiHead.SMat.Idx → EReal)
    {b b' : Fin 2} {r r' : Fin 2048} {e e' : Fin 1024} (hb : b = b') (hr : r = r') (he : e = e') :
    Cert.MultiHead.outProj q k v wo b r e = Cert.MultiHead.outProj q k v wo b' r' e' := by
  subst hb hr he; rfl

/-- After a tile's last head the output block holds, entry by entry, the output layer's result at the tile's rows:
    the sixteen points of the tile are its sixteen heads, and each contributed its head's term of the sum. -/
theorem output_entry (c : Dev nD) (t : Fin cfg3.N) (h15 : t.val % 16 = 15) (i : Fin 512) (e : Fin 1024) :
    (outsAt3 V c t.val t.isLt).2 (ix2 i e)
      = Cert.MultiHead.outProj (qOf V c) (kOf V c) (vOf V c) (woOf V c) (batchOf t) (tileRow t i) e := by
  have ht := point_lt t
  refine (output_sum V c i e t.val t.isLt).trans ?_
  rw [h15, Finset.sum_range]
  unfold Cert.MultiHead.outProj
  refine Finset.sum_congr rfl fun h _ => ?_
  have hh := h.isLt
  have hlt : t.val - 15 + h.val < cfg3.N := (show t.val - 15 + h.val < 128 by omega).trans_eq N_3.symm
  have hb : batchOf ⟨t.val - 15 + h.val, hlt⟩ = batchOf t :=
    Fin.ext (by show (t.val - 15 + h.val) / 64 = t.val / 64; omega)
  have hd : headOf ⟨t.val - 15 + h.val, hlt⟩ = h :=
    Fin.ext (by show (t.val - 15 + h.val) % 16 = h.val; omega)
  have hr : tileRow ⟨t.val - 15 + h.val, hlt⟩ i = tileRow t i :=
    Fin.ext (by show 512 * ((t.val - 15 + h.val) / 16 % 4) + i.val = 512 * (t.val / 16 % 4) + i.val; omega)
  refine (contribAt_of_lt V c i e _ hlt).trans ?_
  refine (contribution_point V c ⟨t.val - 15 + h.val, hlt⟩ i e).trans ?_
  rw [hb, hd, hr]

/-- The same at any entry of the block. -/
theorem output_entry' (c : Dev nD) (t : Fin cfg3.N) (h15 : t.val % 16 = 15) (y : S512x1024.Idx) :
    (outsAt3 V c t.val t.isLt).2 y
      = Cert.MultiHead.outProj (qOf V c) (kOf V c) (vOf V c) (woOf V c) (batchOf t) (tileRow t (y 0)) (y 1) := by
  obtain ⟨i, e, rfl⟩ : ∃ (i : Fin 512) (e : Fin 1024), y = ix2 i e := ⟨y 0, y 1, eq_ix2 y⟩
  exact output_entry V c t h15 i e

/-- What a tile's last point writes back to the output array is its block of `outputOf`. -/
theorem output_flushed (c : Dev nD) (t : Fin cfg3.N) (hf : (cfg3.win 5).flush t = true) :
    (dat3 V c).flushed 5 t = ((cfg3.win 5).blk t).view.read (Elt Ideal) (outputOf V c) := by
  have h15 : t.val % 16 = 15 := (flush3_5 t).mp hf
  have ht := point_lt t
  obtain ⟨e0, e1⟩ := index5 t
  show (cfg3.win 5).cut (grid3.coords t) ((dat3 V c).after 5 t) = _
  rw [after3_5]
  funext y
  rw [View.read_apply]
  show (outsAt3 V c t.val t.isLt).2 _ = outputOf V c _
  refine (output_entry' V c t h15 _).trans ?_
  have y0 : (y 0).val < 512 := (y 0).isLt
  have y1 : (y 1).val < 1024 := (y 1).isLt
  refine outProj_congr _ _ _ _ (Fin.ext ?_) (Fin.ext ?_) (Fin.ext ?_)
  · show t.val / 64 = (win3_5.index t (0 : Fin 2) * 512 + 1 * (y 0).val) / 2048; omega
  · show 512 * (t.val / 16 % 4) + (y 0).val = (win3_5.index t (0 : Fin 2) * 512 + 1 * (y 0).val) % 2048; omega
  · show (y 1).val = win3_5.index t (1 : Fin 2) * 1024 + 1 * (y 1).val; omega

/-- Every entry of the output array is in the block some tile's last point writes back: row `r` in that of the point
    `16 · (r / 512) + 15`. -/
theorem output_cover (i : S4096x1024.Idx) :
    ∃ t : Fin cfg3.N, (cfg3.win 5).flush t = true ∧ i ∈ ((cfg3.win 5).blk t).view.set := by
  have h0 : (i 0).val < 4096 := (i 0).isLt
  have h1 : (i 1).val < 1024 := (i 1).isLt
  obtain ⟨n, hn⟩ : ∃ n : ℕ, n = 16 * ((i 0).val / 512) + 15 := ⟨_, rfl⟩
  have hlt : n < cfg3.N := (show n < 128 by omega).trans_eq N_3.symm
  have e0 : win3_5.index ⟨n, hlt⟩ (0 : Fin 2) = 4 * (n / 64) + n / 16 % 4 := (index5 ⟨n, hlt⟩).1
  have e1 : win3_5.index ⟨n, hlt⟩ (1 : Fin 2) = 0 := (index5 ⟨n, hlt⟩).2
  refine ⟨⟨n, hlt⟩, (flush3_5 ⟨n, hlt⟩).mpr (by show n % 16 = 15; omega), ?_⟩
  show i ∈ ((View.whole main_v20_1).slice (win3_5.rect ⟨n, hlt⟩)).set
  rw [View.set_slice_whole, Rect.mem_set_unit]
  intro a
  match a with
  | ⟨0, _⟩ =>
    show win3_5.index ⟨n, hlt⟩ (0 : Fin 2) * 512 ≤ (i 0).val ∧ (i 0).val < win3_5.index ⟨n, hlt⟩ (0 : Fin 2) * 512 + 512
    omega
  | ⟨1, _⟩ =>
    show win3_5.index ⟨n, hlt⟩ (1 : Fin 2) * 1024 ≤ (i 1).val ∧ (i 1).val < win3_5.index ⟨n, hlt⟩ (1 : Fin 2) * 1024 + 1024
    omega

/-- THE OUTPUT ARRAY after the call: the output layer on the heads' contexts, rows `2048 · batch + row`. -/
theorem output_array (c : Dev nD) :
    ((dat3 V c).arrAt 5 cfg3.N : S4096x1024.Idx → EReal)
      = fun i => Cert.MultiHead.outProj (qOf V c) (kOf V c) (vOf V c) (woOf V c)
          ⟨(i 0).val / 2048, by have h : (i 0).val < 4096 := (i 0).isLt; omega⟩ ⟨(i 0).val % 2048, by omega⟩ (i 1) :=
  (dat3 V c).arrAt_eq_of_cover 5 (outputOf V c) (output_flushed V c) output_cover

end Output

end Cert.KernelIdeal.KValue

end
-- ==== Proof.HeadProjections.lean ====
/-
  What the attention region finds in its input arrays, as functions of the launch arguments, over the extended reals.

  Before the attention region the program runs the same projection kernel three times, once per activation
  (query, key, value): the host flattens the activation `[2, 2048, 1024]` to `[4096, 1024]` (row `2048·b + t`
  is row `t` of batch `b`) and stages the layer's matrix transposed; the kernel walks four blocks of 1024 rows and
  stores, for each, the block's rows against the whole staged matrix; the host then views the `[4096, 1024]` result
  as `[2, 2048, 16, 64]` and exchanges its two middle axes. Over the extended reals the two roundings to bf16 are the
  identity, so entry `(b, h, t, d)` of a head array is `Σ_k x (b, t, k) · W (64·h + d, k)`: the layer's projection
  of row `(b, t)` at column `64·h + d`. The output layer's matrix reaches the region transposed and otherwise untouched.

  Each region is first read generically in the buffer contents it is entered with: one whole-array function
  (`rowsTimes`) whose block at a grid point is what that point writes back; row `r` is covered by point `r / 1024`.
  The three regions are three copies of one text. Then the contents at the boundaries are chained from the attention
  region's entry back to the launch memory.
-/
import proofs.«133852_j87926570484461_2_alg».proof.Proof.Gen.KernelIdeal.Frame
import proofs.«133852_j87926570484461_2_alg».proof.Proof.LibMatmulPlain
import proofs.«133852_j87926570484461_2_alg».proof.Proof.MultiHeadSpec
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- Every row of a `[4096, 1024]` array against every column of a `[1024, 1024]` matrix:
    entry `(r, e)` is `Σ_k a (r, k) · b (k, e)`. -/
def rowsTimes (a : S4096x1024.Idx → EReal) (b : S1024x1024.Idx → EReal) : S4096x1024.Idx → EReal :=
  fun i => ∑ k : Fin 1024, a (ix2 (i 0) k) * b (ix2 k (i 1))

/-! ## Region 0: the projection kernel as one function of the two arrays it reads -/

/-- Entry `(p, q)` of what the body stores: row `p` of the activation block against column `q` of the staged
    matrix (the two roundings are the identity over the extended reals). -/
theorem projPay0_apply (x : Vec Ideal S1024x1024 .f32) (w : Vec Ideal S1024x1024 .bf16) (p q : Fin 1024) :
    k0_pay1 (F := Ideal) x w (ix2 p q) = ∑ k : Fin 1024, x (ix2 p k) * w (ix2 k q) := by
  unfold k0_pay1
  have hd : dot_S1024x1024_S1024x1024_S1024x1024_1_0_0_1_n_n = DotDims.plain 1024 1024 1024 := rfl
  simp only [shapeCast_self]
  rw [truncf_apply, hd]
  exact Cert.Lib.matmul_plain_zero_apply 1024 1024 1024 none _ _ p q

/-- The same entry when the activation block is rows `1024·n …` of an array `a` and the matrix block is all of `b`:
    it is `rowsTimes a b` at the array index under the block index. -/
theorem pay0_block (x : Vec Ideal S1024x1024 .f32) (w : Vec Ideal S1024x1024 .bf16)
    (a : S4096x1024.Idx → EReal) (b : S1024x1024.Idx → EReal) (n : Nat)
    (hx : ∀ (p k : Fin 1024) (r : Fin 4096), r.val = 1024 * n + p.val → x (ix2 p k) = a (ix2 r k))
    (hw : ∀ y : S1024x1024.Idx, w y = b y)
    (j : S1024x1024.Idx) (i : S4096x1024.Idx) (hi0 : (i 0).val = 1024 * n + (j 0).val) (hi1 : (i 1).val = (j 1).val) :
    k0_pay1 (F := Ideal) x w j = rowsTimes a b i := by
  obtain ⟨p, q, rfl⟩ : ∃ (p : Fin 1024) (q : Fin 1024), j = ix2 p q := ⟨j 0, j 1, eq_ix2 j⟩
  rw [projPay0_apply]
  unfold rowsTimes
  have hq : i 1 = q := Fin.ext hi1
  rw [hq]
  exact Finset.sum_congr rfl fun k _ => by rw [hx p k (i 0) hi0, hw]

/-- The index maps over the four grid points: the activation and the result move together one block of
    1024 rows per point, the matrix stays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point `t` writes back is block `t` of `rowsTimes` of the two arrays as the region finds them. -/
theorem flushed0_eq (c : Dev nD) (t : Fin cfg0.N) :
    (dat0 (F := Ideal) V c).flushed 2 t
      = ((cfg0.win 2).blk t).view.read (Elt Ideal) (rowsTimes (V c main_v0) (V c main_v4)) := by
  show (cfg0.win 2).cut (grid0.coords t) ((dat0 V c).after 2 t) = _
  rw [after0_2]
  unfold out0_2
  rw [View.canon_unit_zero hz]
  simp only [View.ld_unit_zero (S := S1024x1024) hz]
  obtain ⟨e0, e1, e2, e3, e4, e5⟩ := idx_facts0 t
  funext j
  refine pay0_block _ _ (V c main_v0) (V c main_v4) t.val (fun p k r hr => ?_) (fun y => ?_) j _ ?_ ?_
  · show V c main_v0 (((cfg0.win 0).blk t).view.emb (ix2 p k)) = V c main_v0 (ix2 r k)
    refine congrArg _ (funext fun a => Fin.ext ?_)
    match a with
    | ⟨0, _⟩ => show win0_0.index t (0 : Fin 2) * 1024 + 1 * p.val = r.val; omega
    | ⟨1, _⟩ => show win0_0.index t (1 : Fin 2) * 1024 + 1 * k.val = k.val; omega
  · show V c main_v4 (((cfg0.win 1).blk t).view.emb y) = V c main_v4 y
    refine congrArg _ (funext fun a => Fin.ext ?_)
    match a with
    | ⟨0, _⟩ => show win0_1.index t (0 : Fin 2) * 1024 + 1 * (y 0).val = (y 0).val; omega
    | ⟨1, _⟩ => show win0_1.index t (1 : Fin 2) * 1024 + 1 * (y 1).val = (y 1).val; omega
  · show win0_2.index t (0 : Fin 2) * 1024 + 1 * (j 0).val = 1024 * t.val + (j 0).val; omega
  · show win0_2.index t (1 : Fin 2) * 1024 + 1 * (j 1).val = (j 1).val; omega

/-- An index of the result array is in point `t`'s block iff each coordinate is in the block's range on its axis. -/
theorem mem_blk0 (t : Fin cfg0.N) (i : S4096x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v11).slice (win0_2.rect t)).set ↔ _
  rw [View.set_slice_whole, Rect.mem_set_unit]
  exact Iff.rfl

/-- Row `r` of the result is written by point `r / 1024`, so the four blocks cover the array and it ends holding
    `rowsTimes` of the two arrays the region read. -/
theorem final0 (c : Dev nD) :
    (dat0 (F := Ideal) V c).arrAt 2 cfg0.N = rowsTimes (V c main_v0) (V c main_v4) :=
  (dat0 (F := Ideal) V c).arrAt_eq_of_cover 2 (rowsTimes (V c main_v0) (V c main_v4))
    (fun t _ => flushed0_eq V c t) fun i => by
      have hi0 : (i 0).val < 4096 := (i 0).isLt
      have hi1 : (i 1).val < 1024 := (i 1).isLt
      have hN : cfg0.N = 4 := N_0
      let t : Fin cfg0.N := ⟨(i 0).val / 1024, by rw [hN]; omega⟩
      obtain ⟨e0, e1, e2, e3, e4, e5⟩ := idx_facts0 t
      have ht : t.val = (i 0).val / 1024 := rfl
      refine ⟨t, flush0_2 t, ?_⟩
      rw [mem_blk0]
      intro a
      match a with
      | ⟨0, _⟩ => show win0_2.index t (0 : Fin 2) * 1024 ≤ (i 0).val ∧ (i 0).val < win0_2.index t (0 : Fin 2) * 1024 + 1024; omega
      | ⟨1, _⟩ => show win0_2.index t (1 : Fin 2) * 1024 ≤ (i 1).val ∧ (i 1).val < win0_2.index t (1 : Fin 2) * 1024 + 1024; omega

end

/-! ## Region 1: the projection kernel as one function of the two arrays it reads -/

/-- Entry `(p, q)` of what the body stores: row `p` of the activation block against column `q` of the staged
    matrix (the two roundings are the identity over the extended reals). -/
theorem projPay1_apply (x : Vec Ideal S1024x1024 .f32) (w : Vec Ideal S1024x1024 .bf16) (p q : Fin 1024) :
    k1_pay1 (F := Ideal) x w (ix2 p q) = ∑ k : Fin 1024, x (ix2 p k) * w (ix2 k q) := by
  unfold k1_pay1
  have hd : dot_S1024x1024_S1024x1024_S1024x1024_1_0_0_1_n_n = DotDims.plain 1024 1024 1024 := rfl
  simp only [shapeCast_self]
  rw [truncf_apply, hd]
  exact Cert.Lib.matmul_plain_zero_apply 1024 1024 1024 none _ _ p q

/-- The same entry when the activation block is rows `1024·n …` of an array `a` and the matrix block is all of `b`:
    it is `rowsTimes a b` at the array index under the block index. -/
theorem pay1_block (x : Vec Ideal S1024x1024 .f32) (w : Vec Ideal S1024x1024 .bf16)
    (a : S4096x1024.Idx → EReal) (b : S1024x1024.Idx → EReal) (n : Nat)
    (hx : ∀ (p k : Fin 1024) (r : Fin 4096), r.val = 1024 * n + p.val → x (ix2 p k) = a (ix2 r k))
    (hw : ∀ y : S1024x1024.Idx, w y = b y)
    (j : S1024x1024.Idx) (i : S4096x1024.Idx) (hi0 : (i 0).val = 1024 * n + (j 0).val) (hi1 : (i 1).val = (j 1).val) :
    k1_pay1 (F := Ideal) x w j = rowsTimes a b i := by
  obtain ⟨p, q, rfl⟩ : ∃ (p : Fin 1024) (q : Fin 1024), j = ix2 p q := ⟨j 0, j 1, eq_ix2 j⟩
  rw [projPay1_apply]
  unfold rowsTimes
  have hq : i 1 = q := Fin.ext hi1
  rw [hq]
  exact Finset.sum_congr rfl fun k _ => by rw [hx p k (i 0) hi0, hw]

/-- The index maps over the four grid points: the activation and the result move together one block of
    1024 rows per point, the matrix stays. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point `t` writes back is block `t` of `rowsTimes` of the two arrays as the region finds them. -/
theorem flushed1_eq (c : Dev nD) (t : Fin cfg1.N) :
    (dat1 (F := Ideal) V c).flushed 2 t
      = ((cfg1.win 2).blk t).view.read (Elt Ideal) (rowsTimes (V c main_v1) (V c main_v6)) := by
  show (cfg1.win 2).cut (grid1.coords t) ((dat1 V c).after 2 t) = _
  rw [after1_2]
  unfold out1_2
  rw [View.canon_unit_zero hz]
  simp only [View.ld_unit_zero (S := S1024x1024) hz]
  obtain ⟨e0, e1, e2, e3, e4, e5⟩ := idx_facts1 t
  funext j
  refine pay1_block _ _ (V c main_v1) (V c main_v6) t.val (fun p k r hr => ?_) (fun y => ?_) j _ ?_ ?_
  · show V c main_v1 (((cfg1.win 0).blk t).view.emb (ix2 p k)) = V c main_v1 (ix2 r k)
    refine congrArg _ (funext fun a => Fin.ext ?_)
    match a with
    | ⟨0, _⟩ => show win1_0.index t (0 : Fin 2) * 1024 + 1 * p.val = r.val; omega
    | ⟨1, _⟩ => show win1_0.index t (1 : Fin 2) * 1024 + 1 * k.val = k.val; omega
  · show V c main_v6 (((cfg1.win 1).blk t).view.emb y) = V c main_v6 y
    refine congrArg _ (funext fun a => Fin.ext ?_)
    match a with
    | ⟨0, _⟩ => show win1_1.index t (0 : Fin 2) * 1024 + 1 * (y 0).val = (y 0).val; omega
    | ⟨1, _⟩ => show win1_1.index t (1 : Fin 2) * 1024 + 1 * (y 1).val = (y 1).val; omega
  · show win1_2.index t (0 : Fin 2) * 1024 + 1 * (j 0).val = 1024 * t.val + (j 0).val; omega
  · show win1_2.index t (1 : Fin 2) * 1024 + 1 * (j 1).val = (j 1).val; omega

/-- An index of the result array is in point `t`'s block iff each coordinate is in the block's range on its axis. -/
theorem mem_blk1 (t : Fin cfg1.N) (i : S4096x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v12).slice (win1_2.rect t)).set ↔ _
  rw [View.set_slice_whole, Rect.mem_set_unit]
  exact Iff.rfl

/-- Row `r` of the result is written by point `r / 1024`, so the four blocks cover the array and it ends holding
    `rowsTimes` of the two arrays the region read. -/
theorem final1 (c : Dev nD) :
    (dat1 (F := Ideal) V c).arrAt 2 cfg1.N = rowsTimes (V c main_v1) (V c main_v6) :=
  (dat1 (F := Ideal) V c).arrAt_eq_of_cover 2 (rowsTimes (V c main_v1) (V c main_v6))
    (fun t _ => flushed1_eq V c t) fun i => by
      have hi0 : (i 0).val < 4096 := (i 0).isLt
      have hi1 : (i 1).val < 1024 := (i 1).isLt
      have hN : cfg1.N = 4 := N_1
      let t : Fin cfg1.N := ⟨(i 0).val / 1024, by rw [hN]; omega⟩
      obtain ⟨e0, e1, e2, e3, e4, e5⟩ := idx_facts1 t
      have ht : t.val = (i 0).val / 1024 := rfl
      refine ⟨t, flush1_2 t, ?_⟩
      rw [mem_blk1]
      intro a
      match a with
      | ⟨0, _⟩ => show win1_2.index t (0 : Fin 2) * 1024 ≤ (i 0).val ∧ (i 0).val < win1_2.index t (0 : Fin 2) * 1024 + 1024; omega
      | ⟨1, _⟩ => show win1_2.index t (1 : Fin 2) * 1024 ≤ (i 1).val ∧ (i 1).val < win1_2.index t (1 : Fin 2) * 1024 + 1024; omega

end

/-! ## Region 2: the projection kernel as one function of the two arrays it reads -/

/-- Entry `(p, q)` of what the body stores: row `p` of the activation block against column `q` of the staged
    matrix (the two roundings are the identity over the extended reals). -/
theorem projPay2_apply (x : Vec Ideal S1024x1024 .f32) (w : Vec Ideal S1024x1024 .bf16) (p q : Fin 1024) :
    k2_pay1 (F := Ideal) x w (ix2 p q) = ∑ k : Fin 1024, x (ix2 p k) * w (ix2 k q) := by
  unfold k2_pay1
  have hd : dot_S1024x1024_S1024x1024_S1024x1024_1_0_0_1_n_n = DotDims.plain 1024 1024 1024 := rfl
  simp only [shapeCast_self]
  rw [truncf_apply, hd]
  exact Cert.Lib.matmul_plain_zero_apply 1024 1024 1024 none _ _ p q

/-- The same entry when the activation block is rows `1024·n …` of an array `a` and the matrix block is all of `b`:
    it is `rowsTimes a b` at the array index under the block index. -/
theorem pay2_block (x : Vec Ideal S1024x1024 .f32) (w : Vec Ideal S1024x1024 .bf16)
    (a : S4096x1024.Idx → EReal) (b : S1024x1024.Idx → EReal) (n : Nat)
    (hx : ∀ (p k : Fin 1024) (r : Fin 4096), r.val = 1024 * n + p.val → x (ix2 p k) = a (ix2 r k))
    (hw : ∀ y : S1024x1024.Idx, w y = b y)
    (j : S1024x1024.Idx) (i : S4096x1024.Idx) (hi0 : (i 0).val = 1024 * n + (j 0).val) (hi1 : (i 1).val = (j 1).val) :
    k2_pay1 (F := Ideal) x w j = rowsTimes a b i := by
  obtain ⟨p, q, rfl⟩ : ∃ (p : Fin 1024) (q : Fin 1024), j = ix2 p q := ⟨j 0, j 1, eq_ix2 j⟩
  rw [projPay2_apply]
  unfold rowsTimes
  have hq : i 1 = q := Fin.ext hi1
  rw [hq]
  exact Finset.sum_congr rfl fun k _ => by rw [hx p k (i 0) hi0, hw]

/-- The index maps over the four grid points: the activation and the result move together one block of
    1024 rows per point, the matrix stays. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- What point `t` writes back is block `t` of `rowsTimes` of the two arrays as the region finds them. -/
theorem flushed2_eq (c : Dev nD) (t : Fin cfg2.N) :
    (dat2 (F := Ideal) V c).flushed 2 t
      = ((cfg2.win 2).blk t).view.read (Elt Ideal) (rowsTimes (V c main_v2) (V c main_v8)) := by
  show (cfg2.win 2).cut (grid2.coords t) ((dat2 V c).after 2 t) = _
  rw [after2_2]
  unfold out2_2
  rw [View.canon_unit_zero hz]
  simp only [View.ld_unit_zero (S := S1024x1024) hz]
  obtain ⟨e0, e1, e2, e3, e4, e5⟩ := idx_facts2 t
  funext j
  refine pay2_block _ _ (V c main_v2) (V c main_v8) t.val (fun p k r hr => ?_) (fun y => ?_) j _ ?_ ?_
  · show V c main_v2 (((cfg2.win 0).blk t).view.emb (ix2 p k)) = V c main_v2 (ix2 r k)
    refine congrArg _ (funext fun a => Fin.ext ?_)
    match a with
    | ⟨0, _⟩ => show win2_0.index t (0 : Fin 2) * 1024 + 1 * p.val = r.val; omega
    | ⟨1, _⟩ => show win2_0.index t (1 : Fin 2) * 1024 + 1 * k.val = k.val; omega
  · show V c main_v8 (((cfg2.win 1).blk t).view.emb y) = V c main_v8 y
    refine congrArg _ (funext fun a => Fin.ext ?_)
    match a with
    | ⟨0, _⟩ => show win2_1.index t (0 : Fin 2) * 1024 + 1 * (y 0).val = (y 0).val; omega
    | ⟨1, _⟩ => show win2_1.index t (1 : Fin 2) * 1024 + 1 * (y 1).val = (y 1).val; omega
  · show win2_2.index t (0 : Fin 2) * 1024 + 1 * (j 0).val = 1024 * t.val + (j 0).val; omega
  · show win2_2.index t (1 : Fin 2) * 1024 + 1 * (j 1).val = (j 1).val; omega

/-- An index of the result array is in point `t`'s block iff each coordinate is in the block's range on its axis. -/
theorem mem_blk2 (t : Fin cfg2.N) (i : S4096x1024.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v13).slice (win2_2.rect t)).set ↔ _
  rw [View.set_slice_whole, Rect.mem_set_unit]
  exact Iff.rfl

/-- Row `r` of the result is written by point `r / 1024`, so the four blocks cover the array and it ends holding
    `rowsTimes` of the two arrays the region read. -/
theorem final2 (c : Dev nD) :
    (dat2 (F := Ideal) V c).arrAt 2 cfg2.N = rowsTimes (V c main_v2) (V c main_v8) :=
  (dat2 (F := Ideal) V c).arrAt_eq_of_cover 2 (rowsTimes (V c main_v2) (V c main_v8))
    (fun t _ => flushed2_eq V c t) fun i => by
      have hi0 : (i 0).val < 4096 := (i 0).isLt
      have hi1 : (i 1).val < 1024 := (i 1).isLt
      have hN : cfg2.N = 4 := N_2
      let t : Fin cfg2.N := ⟨(i 0).val / 1024, by rw [hN]; omega⟩
      obtain ⟨e0, e1, e2, e3, e4, e5⟩ := idx_facts2 t
      have ht : t.val = (i 0).val / 1024 := rfl
      refine ⟨t, flush2_2 t, ?_⟩
      rw [mem_blk2]
      intro a
      match a with
      | ⟨0, _⟩ => show win2_2.index t (0 : Fin 2) * 1024 ≤ (i 0).val ∧ (i 0).val < win2_2.index t (0 : Fin 2) * 1024 + 1024; omega
      | ⟨1, _⟩ => show win2_2.index t (1 : Fin 2) * 1024 ≤ (i 1).val ∧ (i 1).val < win2_2.index t (1 : Fin 2) * 1024 + 1024; omega

end

/-! ## The host's layout operations read at an index -/

/-- The activations `[2, 2048, 1024]` flattened to `[4096, 1024]`: row `2048·b + t` is row `t` of batch `b`. -/
theorem flatAct_apply (x : S2x2048x1024.Idx → EReal) (r : Fin 4096) (k : Fin 1024) (b : Fin 2) (t : Fin 2048)
    (hr : r.val = 2048 * b.val + t.val) :
    shapeCast S4096x1024 x shapeCasts_S2x2048x1024_S4096x1024 (ix2 r k) = x (ix3 b t k) :=
  shapeCast_apply x _ (ix2 r k) (ix3 b t k) (by
    rw [Shape.rowMajor_val_three, Shape.rowMajor_val_two]
    show (b.val * 2048 + t.val) * 1024 + k.val = r.val * 1024 + k.val
    omega)

/-- The staged matrix is the transpose of the layer's matrix (its rounding is the identity over the extended reals). -/
theorem stagedMat_apply (w : S1024x1024.Idx → EReal) (k e : Fin 1024) :
    (truncf (F := Ideal) .bf16 (transpose S1024x1024 [1, 0] w transposes_S1024x1024_S1024x1024_1_0 : FVec Ideal S1024x1024 .f32)
      bitsLt_bf16_f32) (ix2 k e) = w (ix2 e k) := by
  rw [truncf_apply]
  exact transpose_apply _ _ _ _ (ix2 e k) (fun b => match b with | ⟨0, _⟩ => rfl | ⟨1, _⟩ => rfl)

/-- The head layout: `[4096, 1024]` viewed `[2, 2048, 16, 64]` with its two middle axes exchanged. -/
def heads (y : S4096x1024.Idx → EReal) : S2x16x2048x64.Idx → EReal :=
  transpose S2x16x2048x64 [0, 2, 1, 3] (shapeCast S2x2048x16x64 y shapeCasts_S4096x1024_S2x2048x16x64)
    transposes_S2x2048x16x64_S2x16x2048x64_0_2_1_3

/-- Entry `(b, h, t, d)` of the head layout is entry `(2048·b + t, 64·h + d)` of the flat array. -/
theorem heads_apply (y : S4096x1024.Idx → EReal) (b : Fin 2) (h : Fin 16) (t : Fin 2048) (d : Fin 64)
    (r : Fin 4096) (e : Fin 1024) (hr : r.val = 2048 * b.val + t.val) (he : e.val = 64 * h.val + d.val) :
    heads y (ix4 b h t d) = y (ix2 r e) := by
  unfold heads
  refine (transpose_apply _ _ _ (ix4 b h t d) (ix4 b t h d)
    (fun a => match a with | ⟨0, _⟩ => rfl | ⟨1, _⟩ => rfl | ⟨2, _⟩ => rfl | ⟨3, _⟩ => rfl)).trans ?_
  exact shapeCast_apply _ _ _ (ix2 r e) (by
    rw [Shape.rowMajor_val_two, Shape.rowMajor_val_four]
    show r.val * 1024 + e.val = ((b.val * 2048 + t.val) * 16 + h.val) * 64 + d.val
    omega)

/-- The flattened activations against the staged matrix, in the head layout, are the layer's projection:
    entry `(b, h, t, d)` is `Σ_k x (b, t, k) · w (64·h + d, k)`. -/
theorem heads_rowsTimes (x : S2x2048x1024.Idx → EReal) (w : S1024x1024.Idx → EReal)
    (b : Fin 2) (h : Fin 16) (t : Fin 2048) (d : Fin 64) :
    heads (rowsTimes (shapeCast S4096x1024 x shapeCasts_S2x2048x1024_S4096x1024)
        (truncf (F := Ideal) .bf16 (transpose S1024x1024 [1, 0] w transposes_S1024x1024_S1024x1024_1_0 : FVec Ideal S1024x1024 .f32)
          bitsLt_bf16_f32)) (ix4 b h t d)
      = Cert.MultiHead.proj x w b t (Cert.MultiHead.col h d) := by
  have hb := b.isLt
  have ht := t.isLt
  rw [heads_apply _ b h t d ⟨2048 * b.val + t.val, by omega⟩ (Cert.MultiHead.col h d) rfl rfl]
  show ∑ k : Fin 1024, shapeCast S4096x1024 x shapeCasts_S2x2048x1024_S4096x1024 (ix2 ⟨2048 * b.val + t.val, by omega⟩ k)
      * (truncf (F := Ideal) .bf16 (transpose S1024x1024 [1, 0] w transposes_S1024x1024_S1024x1024_1_0 : FVec Ideal S1024x1024 .f32)
          bitsLt_bf16_f32) (ix2 k (Cert.MultiHead.col h d))
    = ∑ k : Fin 1024, x (ix3 b t k) * w (ix2 (Cert.MultiHead.col h d) k)
  refine Finset.sum_congr rfl fun k _ => ?_
  rw [flatAct_apply x _ k b t rfl, stagedMat_apply]

/-! ## The run's boundary contents: from the region's entry back to the arguments -/

section Run
variable (m : (ℓ : Loc nD τ sig) → Buf (Elt Ideal) ℓ) (ρ : Dev nD → PrngReg)

/-- The first host stretch flattens each activation -/
theorem W1_v0 (c : Dev nD) : (W1 (F := Ideal) m ρ c (Proc.devRef .tc main_v0) : S4096x1024.Idx → EReal)
    = shapeCast S4096x1024 (m ((c : Thread nD τ).loc main_arg0)) shapeCasts_S2x2048x1024_S4096x1024 := by
  show StableHlo.after hostOps0 _ _ = _
  after_results
  rfl
theorem W1_v1 (c : Dev nD) : (W1 (F := Ideal) m ρ c (Proc.devRef .tc main_v1) : S4096x1024.Idx → EReal)
    = shapeCast S4096x1024 (m ((c : Thread nD τ).loc main_arg1)) shapeCasts_S2x2048x1024_S4096x1024 := by
  show StableHlo.after hostOps0 _ _ = _
  after_results
  rfl
theorem W1_v2 (c : Dev nD) : (W1 (F := Ideal) m ρ c (Proc.devRef .tc main_v2) : S4096x1024.Idx → EReal)
    = shapeCast S4096x1024 (m ((c : Thread nD τ).loc main_arg2)) shapeCasts_S2x2048x1024_S4096x1024 := by
  show StableHlo.after hostOps0 _ _ = _
  after_results
  rfl

/-- and stages each matrix transposed. -/
theorem W1_v4 (c : Dev nD) : (W1 (F := Ideal) m ρ c (Proc.devRef .tc main_v4) : S1024x1024.Idx → EReal)
    = truncf (F := Ideal) .bf16 (transpose S1024x1024 [1, 0] (m ((c : Thread nD τ).loc main_arg3)) transposes_S1024x1024_S1024x1024_1_0 : FVec Ideal S1024x1024 .f32) bitsLt_bf16_f32 := by
  show StableHlo.after hostOps0 _ _ = _
  after_results
theorem W1_v6 (c : Dev nD) : (W1 (F := Ideal) m ρ c (Proc.devRef .tc main_v6) : S1024x1024.Idx → EReal)
    = truncf (F := Ideal) .bf16 (transpose S1024x1024 [1, 0] (m ((c : Thread nD τ).loc main_arg4)) transposes_S1024x1024_S1024x1024_1_0 : FVec Ideal S1024x1024 .f32) bitsLt_bf16_f32 := by
  show StableHlo.after hostOps0 _ _ = _
  after_results
theorem W1_v8 (c : Dev nD) : (W1 (F := Ideal) m ρ c (Proc.devRef .tc main_v8) : S1024x1024.Idx → EReal)
    = truncf (F := Ideal) .bf16 (transpose S1024x1024 [1, 0] (m ((c : Thread nD τ).loc main_arg5)) transposes_S1024x1024_S1024x1024_1_0 : FVec Ideal S1024x1024 .f32) bitsLt_bf16_f32 := by
  show StableHlo.after hostOps0 _ _ = _
  after_results
theorem W1_v10 (c : Dev nD) : (W1 (F := Ideal) m ρ c (Proc.devRef .tc main_v10) : S1024x1024.Idx → EReal)
    = truncf (F := Ideal) .bf16 (transpose S1024x1024 [1, 0] (m ((c : Thread nD τ).loc main_arg6)) transposes_S1024x1024_S1024x1024_1_0 : FVec Ideal S1024x1024 .f32) bitsLt_bf16_f32 := by
  show StableHlo.after hostOps0 _ _ = _
  after_results

/-- The query projection's array when the attention region is entered: the first region's result, which the two
    later projection regions leave alone. -/
theorem W4_v11 (c : Dev nD) : (W4 (F := Ideal) m ρ c (Proc.devRef .tc main_v11) : S4096x1024.Idx → EReal)
    = rowsTimes (W1 m ρ c (Proc.devRef .tc main_v0)) (W1 m ρ c (Proc.devRef .tc main_v4)) :=
  calc W4 m ρ c (Proc.devRef .tc main_v11)
    _ = W3 m ρ c (Proc.devRef .tc main_v11) := W4_of_ne m ρ c main_v11 (by decide)
    _ = W2 m ρ c (Proc.devRef .tc main_v11) := W3_of_ne m ρ c main_v11 (by decide)
    _ = (dat0 (V1 m ρ) c).arrAt 2 cfg0.N := W2_arr m ρ c 2
    _ = _ := final0 (V1 m ρ) c

/-- The key projection's: the second region's result, of arrays the first region left alone. -/
theorem W4_v12 (c : Dev nD) : (W4 (F := Ideal) m ρ c (Proc.devRef .tc main_v12) : S4096x1024.Idx → EReal)
    = rowsTimes (W1 m ρ c (Proc.devRef .tc main_v1)) (W1 m ρ c (Proc.devRef .tc main_v6)) :=
  calc W4 m ρ c (Proc.devRef .tc main_v12)
    _ = W3 m ρ c (Proc.devRef .tc main_v12) := W4_of_ne m ρ c main_v12 (by decide)
    _ = (dat1 (V2 m ρ) c).arrAt 2 cfg1.N := W3_arr m ρ c 2
    _ = rowsTimes (W2 m ρ c (Proc.devRef .tc main_v1)) (W2 m ρ c (Proc.devRef .tc main_v6)) := final1 (V2 m ρ) c
    _ = _ := by rw [W2_of_ne m ρ c main_v1 (by decide), W2_of_ne m ρ c main_v6 (by decide)]

/-- The value projection's: the third region's result, of arrays the first two regions left alone. -/
theorem W4_v13 (c : Dev nD) : (W4 (F := Ideal) m ρ c (Proc.devRef .tc main_v13) : S4096x1024.Idx → EReal)
    = rowsTimes (W1 m ρ c (Proc.devRef .tc main_v2)) (W1 m ρ c (Proc.devRef .tc main_v8)) :=
  calc W4 m ρ c (Proc.devRef .tc main_v13)
    _ = (dat2 (V3 m ρ) c).arrAt 2 cfg2.N := W4_arr m ρ c 2
    _ = rowsTimes (W3 m ρ c (Proc.devRef .tc main_v2)) (W3 m ρ c (Proc.devRef .tc main_v8)) := final2 (V3 m ρ) c
    _ = _ := by rw [W3_of_ne m ρ c main_v2 (by decide), W3_of_ne m ρ c main_v8 (by decide),
                    W2_of_ne m ρ c main_v2 (by decide), W2_of_ne m ρ c main_v8 (by decide)]

/-- The second host stretch lays each projection out by heads. -/
theorem W5_v15 (c : Dev nD) : (W5 (F := Ideal) m ρ c (Proc.devRef .tc main_v15) : S2x16x2048x64.Idx → EReal)
    = heads (W4 m ρ c (Proc.devRef .tc main_v11)) := by
  show StableHlo.after hostOps3 _ _ = _
  after_results
  rfl
theorem W5_v17 (c : Dev nD) : (W5 (F := Ideal) m ρ c (Proc.devRef .tc main_v17) : S2x16x2048x64.Idx → EReal)
    = heads (W4 m ρ c (Proc.devRef .tc main_v12)) := by
  show StableHlo.after hostOps3 _ _ = _
  after_results
  rfl
theorem W5_v19 (c : Dev nD) : (W5 (F := Ideal) m ρ c (Proc.devRef .tc main_v19) : S2x16x2048x64.Idx → EReal)
    = heads (W4 m ρ c (Proc.devRef .tc main_v13)) := by
  show StableHlo.after hostOps3 _ _ = _
  after_results
  rfl

/-- The staged output matrix reaches the attention region as the first host stretch left it. -/
theorem W5_v10 (c : Dev nD) : W5 (F := Ideal) m ρ c (Proc.devRef .tc main_v10) = W1 m ρ c (Proc.devRef .tc main_v10) :=
  calc W5 m ρ c (Proc.devRef .tc main_v10)
    _ = W4 m ρ c (Proc.devRef .tc main_v10) := by
          show StableHlo.after hostOps3 _ _ = _
          after_results
    _ = W3 m ρ c (Proc.devRef .tc main_v10) := W4_of_ne m ρ c main_v10 (by decide)
    _ = W2 m ρ c (Proc.devRef .tc main_v10) := W3_of_ne m ρ c main_v10 (by decide)
    _ = W1 m ρ c (Proc.devRef .tc main_v10) := W2_of_ne m ρ c main_v10 (by decide)

/-! ## What the attention region finds in its four input arrays -/

/-- Entry `(b, h, t, d)` of the query head array is the query layer's projection of row `(b, t)` at column `64·h + d`. -/
theorem entry_q (c : Dev nD) : (V5 (F := Ideal) m ρ c main_v15 : S2x16x2048x64.Idx → EReal)
    = fun i => Cert.MultiHead.proj (m ((c : Thread nD τ).loc main_arg0)) (m ((c : Thread nD τ).loc main_arg3))
        (i 0) (i 2) (Cert.MultiHead.col (i 1) (i 3)) := by
  funext i
  obtain ⟨b, h, t, d, rfl⟩ : ∃ (b : Fin 2) (h : Fin 16) (t : Fin 2048) (d : Fin 64), i = ix4 b h t d :=
    ⟨i 0, i 1, i 2, i 3, eq_ix4 i⟩
  show (W5 m ρ c (Proc.devRef .tc main_v15) : S2x16x2048x64.Idx → EReal) (ix4 b h t d) = _
  rw [W5_v15, W4_v11, W1_v0, W1_v4]
  exact heads_rowsTimes _ _ b h t d

/-- The same for the key head array and the key layer. -/
theorem entry_k (c : Dev nD) : (V5 (F := Ideal) m ρ c main_v17 : S2x16x2048x64.Idx → EReal)
    = fun i => Cert.MultiHead.proj (m ((c : Thread nD τ).loc main_arg1)) (m ((c : Thread nD τ).loc main_arg4))
        (i 0) (i 2) (Cert.MultiHead.col (i 1) (i 3)) := by
  funext i
  obtain ⟨b, h, t, d, rfl⟩ : ∃ (b : Fin 2) (h : Fin 16) (t : Fin 2048) (d : Fin 64), i = ix4 b h t d :=
    ⟨i 0, i 1, i 2, i 3, eq_ix4 i⟩
  show (W5 m ρ c (Proc.devRef .tc main_v17) : S2x16x2048x64.Idx → EReal) (ix4 b h t d) = _
  rw [W5_v17, W4_v12, W1_v1, W1_v6]
  exact heads_rowsTimes _ _ b h t d

/-- The same for the value head array and the value layer. -/
theorem entry_v (c : Dev nD) : (V5 (F := Ideal) m ρ c main_v19 : S2x16x2048x64.Idx → EReal)
    = fun i => Cert.MultiHead.proj (m ((c : Thread nD τ).loc main_arg2)) (m ((c : Thread nD τ).loc main_arg5))
        (i 0) (i 2) (Cert.MultiHead.col (i 1) (i 3)) := by
  funext i
  obtain ⟨b, h, t, d, rfl⟩ : ∃ (b : Fin 2) (h : Fin 16) (t : Fin 2048) (d : Fin 64), i = ix4 b h t d :=
    ⟨i 0, i 1, i 2, i 3, eq_ix4 i⟩
  show (W5 m ρ c (Proc.devRef .tc main_v19) : S2x16x2048x64.Idx → EReal) (ix4 b h t d) = _
  rw [W5_v19, W4_v13, W1_v2, W1_v8]
  exact heads_rowsTimes _ _ b h t d

/-- The staged output matrix is the output layer's matrix transposed. -/
theorem entry_wo (c : Dev nD) : (V5 (F := Ideal) m ρ c main_v10 : S1024x1024.Idx → EReal)
    = fun i => m ((c : Thread nD τ).loc main_arg6) (ix2 (i 1) (i 0)) := by
  funext i
  obtain ⟨k, e, rfl⟩ : ∃ (k : Fin 1024) (e : Fin 1024), i = ix2 k e := ⟨i 0, i 1, eq_ix2 i⟩
  show (W5 m ρ c (Proc.devRef .tc main_v10) : S1024x1024.Idx → EReal) (ix2 k e) = _
  rw [W5_v10, W1_v10]
  exact stagedMat_apply _ k e

end Run

end Cert.KernelIdeal.KValue

end
-- ==== Proof.KernelIsSpec.lean ====
/-
  The idealized kernel's two results are the specification's two functions of the seven arguments.

  At the attention call's entry the three head arrays hold the three projections, entry `(b, h, t, d)` being the
  projection of row `(b, t)` at column `64·h + d`, and the staged output matrix is the transposed argument; every
  column `x` of the 1024 is column `x % 64` of head `x / 64`. So the attention call's first output array is the
  attention weights of the projected queries and keys, and its second is the output layer of the heads' contexts, at
  row `2048·b + t` for batch `b` and position `t`. The last host operation re-shapes the second array to
  `[2, 2048, 1024]` and leaves the first untouched.
-/
import proofs.«133852_j87926570484461_2_alg».proof.Proof.MultiHeadSpec
import proofs.«133852_j87926570484461_2_alg».proof.Proof.KernelRun
import proofs.«133852_j87926570484461_2_alg».proof.Proof.KernelTail
import proofs.«133852_j87926570484461_2_alg».proof.Proof.AttentionArrays
import proofs.«133852_j87926570484461_2_alg».proof.Proof.HeadProjections

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- Column `x` is column `x % 64` of head `x / 64`. -/
theorem col_of_parts (x : Fin 1024) : Cert.MultiHead.col (headOfCol x) (offOfCol x) = x := by
  apply Fin.ext
  show 64 * (x.val / 64) + x.val % 64 = x.val
  omega

/-- The query heads at the attention call's entry are the query projection. -/
theorem entry_query (c : Dev nD) :
    qOf (V5 (F := Ideal) m ρ) c
      = Cert.MultiHead.proj (m ((c : Thread nD τ).loc main_arg0)) (m ((c : Thread nD τ).loc main_arg3)) := by
  funext b t x
  show (V5 (F := Ideal) m ρ c main_v15 : S2x16x2048x64.Idx → EReal) (ix4 b (headOfCol x) t (offOfCol x)) = _
  rw [entry_q m ρ c]
  show Cert.MultiHead.proj _ _ b t (Cert.MultiHead.col (headOfCol x) (offOfCol x)) = _
  rw [col_of_parts]

/-- The key heads are the key projection. -/
theorem entry_key (c : Dev nD) :
    kOf (V5 (F := Ideal) m ρ) c
      = Cert.MultiHead.proj (m ((c : Thread nD τ).loc main_arg1)) (m ((c : Thread nD τ).loc main_arg4)) := by
  funext b t x
  show (V5 (F := Ideal) m ρ c main_v17 : S2x16x2048x64.Idx → EReal) (ix4 b (headOfCol x) t (offOfCol x)) = _
  rw [entry_k m ρ c]
  show Cert.MultiHead.proj _ _ b t (Cert.MultiHead.col (headOfCol x) (offOfCol x)) = _
  rw [col_of_parts]

/-- The value heads are the value projection. -/
theorem entry_value (c : Dev nD) :
    vOf (V5 (F := Ideal) m ρ) c
      = Cert.MultiHead.proj (m ((c : Thread nD τ).loc main_arg2)) (m ((c : Thread nD τ).loc main_arg5)) := by
  funext b t x
  show (V5 (F := Ideal) m ρ c main_v19 : S2x16x2048x64.Idx → EReal) (ix4 b (headOfCol x) t (offOfCol x)) = _
  rw [entry_v m ρ c]
  show Cert.MultiHead.proj _ _ b t (Cert.MultiHead.col (headOfCol x) (offOfCol x)) = _
  rw [col_of_parts]

/-- The staged output matrix, read transposed, is the output layer's matrix. -/
theorem entry_outmat (c : Dev nD) :
    woOf (V5 (F := Ideal) m ρ) c = m ((c : Thread nD τ).loc main_arg6) := by
  funext i
  show (V5 (F := Ideal) m ρ c main_v10 : S1024x1024.Idx → EReal) (ix2 (i 1) (i 0)) = _
  rw [entry_wo m ρ c]
  exact congrArg (m ((c : Thread nD τ).loc main_arg6)) (eq_ix2 i).symm

/-- The weights result is the specification's attention weights of the arguments. -/
theorem weights_value (c : Dev nD) :
    (W7 (F := Ideal) m ρ c (Proc.devRef .tc main_v20_0) : S2x16x2048x2048.Idx → EReal)
      = Cert.MultiHead.weights (m ((c : Thread nD τ).loc main_arg0)) (m ((c : Thread nD τ).loc main_arg1))
          (m ((c : Thread nD τ).loc main_arg3)) (m ((c : Thread nD τ).loc main_arg4)) := by
  rw [tail_weights m ρ c, weights_array (V5 (F := Ideal) m ρ) c, entry_query m ρ c, entry_key m ρ c]
  rfl

/-- The output result is the specification's output of the arguments. -/
theorem output_value (c : Dev nD) :
    (W7 (F := Ideal) m ρ c (Proc.devRef .tc main_v21) : S2x2048x1024.Idx → EReal)
      = Cert.MultiHead.output (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  funext i
  obtain ⟨b, t, e, rfl⟩ : ∃ (b : Fin 2) (t : Fin 2048) (e : Fin 1024), i = ix3 b t e := ⟨i 0, i 1, i 2, eq_ix3 i⟩
  rw [tail_output_apply m ρ c b t e, output_array (V5 (F := Ideal) m ρ) c, entry_query m ρ c, entry_key m ρ c,
    entry_value m ρ c, entry_outmat m ρ c]
  refine congrArg₂ (fun (b' : Fin 2) (t' : Fin 2048) => Cert.MultiHead.outProj _ _ _ _ b' t' e) (Fin.ext ?_) (Fin.ext ?_)
  · show (b.val * 2048 + t.val) / 2048 = b.val
    have := t.isLt
    omega
  · show (b.val * 2048 + t.val) % 2048 = t.val
    have := t.isLt
    omega

/-- Every weakly fair execution of the idealized kernel terminates without a fault, with the output result at the
    specification's output and the weights result at the specification's weights of the argument arrays, which end
    as launched. -/
theorem run_spec : θ_run defs (onTc (τ := τ) (main (F := Ideal))) ⟨m, fun _ => 0, ρ⟩ (fun r => ∀ c : Dev nD,
      r.2.mem ((c.tc : Thread nD τ).loc main_v21)
        = Cert.MultiHead.output (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_v20_0)
        = Cert.MultiHead.weights (m ((c.tc : Thread nD τ).loc main_arg0)) (m ((c.tc : Thread nD τ).loc main_arg1))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun r h c => ⟨(h c).1.trans (output_value m ρ c), (h c).2.1.trans (weights_value m ρ c), (h c).2.2⟩)
    (run_results m ρ)

end Cert.KernelIdeal.KValue

end
-- ==== Proof.lean ====
/-
  Multi-head attention with its output projection fused into the attention kernel, against the plain formulation.

  Both programs take three activation arrays [2, 2048, 1024] and four layer matrices [1024, 1024] and return the
  projected output [2, 2048, 1024] and the attention weights [2, 16, 2048, 2048]. Over the extended reals both compute
  the same two functions of the seven arguments (`Cert.MultiHead.output`, `Cert.MultiHead.weights`):

  * a change of float format is the identity, so the kernel's narrowing of activations, matrices, projections,
    probabilities and contexts changes nothing;
  * the kernel multiplies the scores by 1/8 where the reference divides them by the square root of 64: the square root
    is 8, and dividing by a non-zero real is multiplying by its reciprocal on every extended real;
  * both take a row's maximum from minus infinity over the same 2048 scores (the reference then takes the maximum with
    minus infinity once more, which changes nothing), subtract it, exponentiate, and divide by the row's sum;
  * the kernel splits every matrix product into blocks and adds one head's contribution to the output at a time,
    starting from zero, where the reference contracts over all 1024 columns at once: a finite sum in a commutative
    monoid does not depend on its order or grouping, infinite terms included.

  None of these laws needs the inputs to be finite, so the precondition is not opened.

  The kernel's program is four calls among host operations; the generated frame runs it segment by segment, and the
  value of each result buffer is read off the last boundary of that run: the three projections block by block, the
  re-layout into heads, the attention call's two output arrays (the weights block by block; the output block by the
  induction over the heads of a tile), and the final re-shape. The reference's run and its operations read at an
  index are generated; what is shown for it is that its two result terms are the same two functions.
-/
import proofs.«133852_j87926570484461_2_alg».proof.Defs
import proofs.«133852_j87926570484461_2_alg».proof.Proof.Gen.Kernel
import proofs.«133852_j87926570484461_2_alg».proof.Proof.Gen.Kernel.Skeleton
import proofs.«133852_j87926570484461_2_alg».proof.Proof.Gen.Kernel.Launch
import proofs.«133852_j87926570484461_2_alg».proof.Proof.Gen.Kernel.Points
import proofs.«133852_j87926570484461_2_alg».proof.Proof.Gen.Kernel.Frame
import proofs.«133852_j87926570484461_2_alg».proof.Proof.Gen.KernelIdeal
import proofs.«133852_j87926570484461_2_alg».proof.Proof.Gen.KernelIdeal.Skeleton
import proofs.«133852_j87926570484461_2_alg».proof.Proof.Gen.KernelIdeal.Launch
import proofs.«133852_j87926570484461_2_alg».proof.Proof.Gen.KernelIdeal.Points
import proofs.«133852_j87926570484461_2_alg».proof.Proof.Gen.KernelIdeal.Frame
import proofs.«133852_j87926570484461_2_alg».proof.Proof.Gen.ReferenceIdeal
import proofs.«133852_j87926570484461_2_alg».proof.Proof.Gen.ReferenceIdeal.Run
import proofs.«133852_j87926570484461_2_alg».proof.Proof.Gen.ReferenceIdeal.Read
import proofs.«133852_j87926570484461_2_alg».proof.Proof.Gen.Pre_finite_inputs
import proofs.«133852_j87926570484461_2_alg».proof.Proof.ReferenceIsSpec
import proofs.«133852_j87926570484461_2_alg».proof.Proof.KernelIsSpec
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel :=
  fun m ρ _ => Cert.Kernel.Gen.frame m ρ

/-- The idealized kernel likewise. -/
theorem frame_kernel_ideal : Cert.frame_KernelIdeal :=
  fun m ρ _ => Cert.KernelIdeal.Gen.frame m ρ

/-- The reference runs and keeps its arguments: its generated run with the results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- From memories that agree on the seven arguments both programs end with the output at `Cert.MultiHead.output` and
    the weights at `Cert.MultiHead.weights` of those arguments. -/
theorem algebraic : Cert.algebraic_KernelIdeal_ReferenceIdeal := by
  intro m ρ m' ρ' _ hagree
  refine ⟨_, _, Cert.KernelIdeal.KValue.run_spec m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v27_eq, Cert.ReferenceIdeal.RefValue.output_eq,
      (hagree c).1, (hagree c).2.1, (hagree c).2.2.1, (hagree c).2.2.2.1, (hagree c).2.2.2.2.1,
      (hagree c).2.2.2.2.2.1, (hagree c).2.2.2.2.2.2]
  · rw [Cert.ReferenceIdeal.Read.val_main_v23_eq, Cert.ReferenceIdeal.RefValue.weights_eq,
      (hagree c).1, (hagree c).2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
